-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v96) = v0 c
          ∧ r.2.mem ((c.tc : Thread Cert.ReferenceIdeal.nD Cert.ReferenceIdeal.τ).loc Cert.ReferenceIdeal.main_v97) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x144x16x16x12x12 : Shape := ⟨6, ![8, 144, 16, 16, 12, 12]⟩
abbrev S8x144x12x12 : Shape := ⟨4, ![8, 144, 12, 12]⟩
abbrev S_ : Shape := ⟨0, ![]⟩

class Facts : Prop where
  bcast_S_S8x144x16x16x12x12 : S_.BroadcastsInDim S8x144x16x16x12x12 (![] : Fin 0 → Fin S8x144x16x16x12x12.rank)
  reducesTo_S8x144x16x16x12x12_S_d0_1_2_3_4_5 : S8x144x16x16x12x12.ReducesTo [0, 1, 2, 3, 4, 5] S_
  h_S_ : 0 < S_.numel
  bcast_S_S8x144x12x12 : S_.BroadcastsInDim S8x144x12x12 (![] : Fin 0 → Fin S8x144x12x12.rank)
  reducesTo_S8x144x12x12_S_d0_1_2_3 : S8x144x12x12.ReducesTo [0, 1, 2, 3] S_

variable [Facts]

def fn {F : FTy → Type} [FloatOps F] (main_arg0 : FVec F S8x144x16x16x12x12 .f32) (main_arg1 : FVec F S8x144x12x12 .f32) : IVec S_ 1 :=
  let main_v0 : FVec F S8x144x16x16x12x12 .f32 := Host.absf main_arg0
  let main_cst : FVec F S_ .f32 := constant S_ .f32 0x7F800000#32
  let main_v1 : FVec F S8x144x16x16x12x12 .f32 := broadcastInDim S8x144x16x16x12x12 ![] bcast_S_S8x144x16x16x12x12 main_cst
  let main_v2 : IVec S8x144x16x16x12x12 1 := cmpf .olt main_v0 main_v1
  let main_c : IVec S_ 1 := constantI S_ 1 1#1
  let main_v3 : IVec S_ 1 := (fun x v => Host.reduce IntOp.andi x v reducesTo_S8x144x16x16x12x12_S_d0_1_2_3_4_5 h_S_) main_v2 main_c
  let main_v4 : FVec F S8x144x12x12 .f32 := Host.absf main_arg1
  let main_cst_0 : FVec F S_ .f32 := constant S_ .f32 0x7F800000#32
  let main_v5 : FVec F S8x144x12x12 .f32 := broadcastInDim S8x144x12x12 ![] bcast_S_S8x144x12x12 main_cst_0
  let main_v6 : IVec S8x144x12x12 1 := cmpf .olt main_v4 main_v5
  let main_c_1 : IVec S_ 1 := constantI S_ 1 1#1
  let main_v7 : IVec S_ 1 := (fun x v => Host.reduce IntOp.andi x v reducesTo_S8x144x12x12_S_d0_1_2_3 h_S_) main_v6 main_c_1
  let main_v8 : IVec S_ 1 := andi main_v3 main_v7
  main_v8
-- ==== Kernel.lean ====
abbrev S8x144x16x16x12x12 : Shape := ⟨6, ![8, 144, 16, 16, 12, 12]⟩
abbrev S8x144x12x12 : Shape := ⟨4, ![8, 144, 12, 12]⟩
abbrev S8x144x16x16x144 : Shape := ⟨5, ![8, 144, 16, 16, 144]⟩
abbrev S8x144x144 : Shape := ⟨3, ![8, 144, 144]⟩
abbrev S8x16x16x144 : Shape := ⟨4, ![8, 16, 16, 144]⟩
abbrev S8x16x144 : Shape := ⟨3, ![8, 16, 144]⟩
abbrev S1x144x16x16x144 : Shape := ⟨5, ![1, 144, 16, 16, 144]⟩
abbrev S1x144x144 : Shape := ⟨3, ![1, 144, 144]⟩
abbrev S1x16x16x144 : Shape := ⟨4, ![1, 16, 16, 144]⟩
abbrev S1x16x144 : Shape := ⟨3, ![1, 16, 144]⟩
abbrev S144x16x144 : Shape := ⟨3, ![144, 16, 144]⟩
abbrev S16x16x144 : Shape := ⟨3, ![16, 16, 144]⟩
abbrev S144x144 : Shape := ⟨2, ![144, 144]⟩
abbrev S144x1x144 : Shape := ⟨3, ![144, 1, 144]⟩
abbrev S1x8x16x16x144 : Shape := ⟨5, ![1, 8, 16, 16, 144]⟩
abbrev S8x16x1x144 : Shape := ⟨4, ![8, 16, 1, 144]⟩
abbrev S16x144 : Shape := ⟨2, ![16, 144]⟩
abbrev S16x1x144 : Shape := ⟨3, ![16, 1, 144]⟩
abbrev S8x16x16x12x12 : Shape := ⟨5, ![8, 16, 16, 12, 12]⟩
abbrev S8x16x12x12 : Shape := ⟨4, ![8, 16, 12, 12]⟩

abbrev nBuf : Space → Nat
  | .hbm => 9
  | .vmem => 10
  | .smem => 0
  | _ => 0

abbrev bufTy : (tb : Table) → Fin (tcTables nBuf tb) → BufTy
  | .hbm, ⟨0, _⟩ => ⟨S8x144x16x16x12x12, .f32⟩
  | .hbm, ⟨1, _⟩ => ⟨S8x144x12x12, .f32⟩
  | .hbm, ⟨2, _⟩ => ⟨S8x144x16x16x144, .f32⟩
  | .hbm, ⟨3, _⟩ => ⟨S8x144x16x16x144, .bf16⟩
  | .hbm, ⟨4, _⟩ => ⟨S8x144x144, .f32⟩
  | .hbm, ⟨5, _⟩ => ⟨S8x16x16x144, .f32⟩
  | .hbm, ⟨6, _⟩ => ⟨S8x16x144, .f32⟩
  | .hbm, ⟨7, _⟩ => ⟨S8x16x16x12x12, .f32⟩
  | .hbm, ⟨8, _⟩ => ⟨S8x16x12x12, .f32⟩
  | .local _ .vmem, ⟨0, _⟩ => ⟨S1x144x16x16x144, .bf16⟩
  | .local _ .vmem, ⟨1, _⟩ => ⟨S1x144x144, .f32⟩
  | .local _ .vmem, ⟨2, _⟩ => ⟨S1x144x144, .f32⟩
  | .local _ .vmem, ⟨3, _⟩ => ⟨S1x16x16x144, .f32⟩
  | .local _ .vmem, ⟨4, _⟩ => ⟨S1x16x16x144, .f32⟩
  | .local _ .vmem, ⟨5, _⟩ => ⟨S1x16x144, .f32⟩
  | .local _ .vmem, ⟨6, _⟩ => ⟨S1x16x144, .f32⟩
  | .local _ .vmem, ⟨7, _⟩ => ⟨S144x16x144, .f32⟩
  | .local _ .vmem, ⟨8, _⟩ => ⟨S144x16x144, .f32⟩
  | .local _ .vmem, ⟨9, _⟩ => ⟨S16x16x144, .f32⟩
  | _, _ => ⟨S8x144x16x16x12x12, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3_0 : Ref sig .tc := ⟨.hbm, 5, rfl⟩
abbrev main_v3_1 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c18_i32 : BitVec 32 := 18#32
  let v27 : BitVec 32 := Scalar.addi c0_i32 c18_i32
  let c1_i32 : BitVec 32 := 1#32
  ⟨c0_i32, v27, c1_i32⟩
def k0_mult1 (k0_t1 : Fin k0_t1_loop.trips) : BitVec 32 :=
  let c0_i32_82 : BitVec 32 := 0#32
  let c0_i32 : BitVec 32 := 0#32
  let c1_i32 : BitVec 32 := 1#32
  let arg8 : BitVec 32 := Scf.iv c0_i32 c1_i32 k0_t1
  let c1_i32_81 : BitVec 32 := 1#32
  let v111 : BitVec 32 := Scalar.muli arg8 c1_i32_81
  let v112 : BitVec 32 := Scalar.addi c0_i32_82 v111
  let c8_i32 : BitVec 32 := 8#32
  let v113 : BitVec 32 := Scalar.muli v112 c8_i32
  v113
def k0_off1 (k0_t1 : Fin k0_t1_loop.trips) : Fin 5 → Nat :=
  let c0_83 : Index := 0#32
  let c0_i32_82 : BitVec 32 := 0#32
  let c0_i32 : BitVec 32 := 0#32
  let c1_i32 : BitVec 32 := 1#32
  let arg8 : BitVec 32 := Scf.iv c0_i32 c1_i32 k0_t1
  let c1_i32_81 : BitVec 32 := 1#32
  let v111 : BitVec 32 := Scalar.muli arg8 c1_i32_81
  let v112 : BitVec 32 := Scalar.addi c0_i32_82 v111
  let c8_i32 : BitVec 32 := 8#32
  let v113 : BitVec 32 := Scalar.muli v112 c8_i32
  let v114 : BitVec 32 := v113
  let v115 : Index := Scalar.indexCast v114
  let c0_84 : Index := 0#32
  let c0_85 : Index := 0#32
  let c0_86 : Index := 0#32
  ![0, v115.toNat, 0, 0, 0]
def k0_off2 (k0_t1 : Fin k0_t1_loop.trips) : Fin 3 → Nat :=
  let c0_i32_82 : BitVec 32 := 0#32
  let c0_i32 : BitVec 32 := 0#32
  let c1_i32 : BitVec 32 := 1#32
  let arg8 : BitVec 32 := Scf.iv c0_i32 c1_i32 k0_t1
  let c1_i32_81 : BitVec 32 := 1#32
  let v111 : BitVec 32 := Scalar.muli arg8 c1_i32_81
  let v112 : BitVec 32 := Scalar.addi c0_i32_82 v111
  let c8_i32 : BitVec 32 := 8#32
  let v113 : BitVec 32 := Scalar.muli v112 c8_i32
  let v114 : BitVec 32 := v113
  let v119 : Index := Scalar.indexCast v114
  let c0_87 : Index := 0#32
  let c0_88 : Index := 0#32
  ![v119.toNat, 0, 0]
@[reducible] def k0_t2_loop : Scf.Loop 32 :=
  let c0_i32_23 : BitVec 32 := 0#32
  let c18_i32_24 : BitVec 32 := 18#32
  let v40 : BitVec 32 := Scalar.addi c0_i32_23 c18_i32_24
  let c1_i32_25 : BitVec 32 := 1#32
  ⟨c0_i32_23, v40, c1_i32_25⟩
def k0_mult2 (k0_t2 : Fin k0_t2_loop.trips) : BitVec 32 :=
  let c0_i32_82 : BitVec 32 := 0#32
  let c0_i32_23 : BitVec 32 := 0#32
  let c1_i32_25 : BitVec 32 := 1#32
  let arg8 : BitVec 32 := Scf.iv c0_i32_23 c1_i32_25 k0_t2
  let c1_i32_81 : BitVec 32 := 1#32
  let v111 : BitVec 32 := Scalar.muli arg8 c1_i32_81
  let v112 : BitVec 32 := Scalar.addi c0_i32_82 v111
  let c8_i32 : BitVec 32 := 8#32
  let v113 : BitVec 32 := Scalar.muli v112 c8_i32
  v113
def k0_off3 (k0_t2 : Fin k0_t2_loop.trips) : Fin 5 → Nat :=
  let c0_83 : Index := 0#32
  let c0_i32_82 : BitVec 32 := 0#32
  let c0_i32_23 : BitVec 32 := 0#32
  let c1_i32_25 : BitVec 32 := 1#32
  let arg8 : BitVec 32 := Scf.iv c0_i32_23 c1_i32_25 k0_t2
  let c1_i32_81 : BitVec 32 := 1#32
  let v111 : BitVec 32 := Scalar.muli arg8 c1_i32_81
  let v112 : BitVec 32 := Scalar.addi c0_i32_82 v111
  let c8_i32 : BitVec 32 := 8#32
  let v113 : BitVec 32 := Scalar.muli v112 c8_i32
  let v114 : BitVec 32 := v113
  let v115 : Index := Scalar.indexCast v114
  let c0_84 : Index := 0#32
  let c0_85 : Index := 0#32
  let c0_86 : Index := 0#32
  ![0, v115.toNat, 0, 0, 0]
def k0_off4 (k0_t2 : Fin k0_t2_loop.trips) : Fin 3 → Nat :=
  let c0_i32_82 : BitVec 32 := 0#32
  let c0_i32_23 : BitVec 32 := 0#32
  let c1_i32_25 : BitVec 32 := 1#32
  let arg8 : BitVec 32 := Scf.iv c0_i32_23 c1_i32_25 k0_t2
  let c1_i32_81 : BitVec 32 := 1#32
  let v111 : BitVec 32 := Scalar.muli arg8 c1_i32_81
  let v112 : BitVec 32 := Scalar.addi c0_i32_82 v111
  let c8_i32 : BitVec 32 := 8#32
  let v113 : BitVec 32 := Scalar.muli v112 c8_i32
  let v114 : BitVec 32 := v113
  let v123 : Index := Scalar.indexCast v114
  let c0_88 : Index := 0#32
  let c0_89 : Index := 0#32
  ![v123.toNat, 0, 0]
@[reducible] def k0_t3_loop : Scf.Loop 32 :=
  let c0_i32_39 : BitVec 32 := 0#32
  let c18_i32_40 : BitVec 32 := 18#32
  let v58 : BitVec 32 := Scalar.addi c0_i32_39 c18_i32_40
  let c1_i32_41 : BitVec 32 := 1#32
  ⟨c0_i32_39, v58, c1_i32_41⟩
def k0_mult3 (k0_t3 : Fin k0_t3_loop.trips) : BitVec 32 :=
  let c0_i32_82 : BitVec 32 := 0#32
  let c0_i32_39 : BitVec 32 := 0#32
  let c1_i32_41 : BitVec 32 := 1#32
  let arg8 : BitVec 32 := Scf.iv c0_i32_39 c1_i32_41 k0_t3
  let c1_i32_81 : BitVec 32 := 1#32
  let v111 : BitVec 32 := Scalar.muli arg8 c1_i32_81
  let v112 : BitVec 32 := Scalar.addi c0_i32_82 v111
  let c8_i32 : BitVec 32 := 8#32
  let v113 : BitVec 32 := Scalar.muli v112 c8_i32
  v113
def k0_off5 (k0_t3 : Fin k0_t3_loop.trips) : Fin 5 → Nat :=
  let c0_83 : Index := 0#32
  let c0_i32_82 : BitVec 32 := 0#32
  let c0_i32_39 : BitVec 32 := 0#32
  let c1_i32_41 : BitVec 32 := 1#32
  let arg8 : BitVec 32 := Scf.iv c0_i32_39 c1_i32_41 k0_t3
  let c1_i32_81 : BitVec 32 := 1#32
  let v111 : BitVec 32 := Scalar.muli arg8 c1_i32_81
  let v112 : BitVec 32 := Scalar.addi c0_i32_82 v111
  let c8_i32 : BitVec 32 := 8#32
  let v113 : BitVec 32 := Scalar.muli v112 c8_i32
  let v114 : BitVec 32 := v113
  let v115 : Index := Scalar.indexCast v114
  let c0_84 : Index := 0#32
  let c0_85 : Index := 0#32
  let c0_86 : Index := 0#32
  ![0, v115.toNat, 0, 0, 0]
def k0_off6 (k0_t3 : Fin k0_t3_loop.trips) : Fin 3 → Nat :=
  let c0_i32_82 : BitVec 32 := 0#32
  let c0_i32_39 : BitVec 32 := 0#32
  let c1_i32_41 : BitVec 32 := 1#32
  let arg8 : BitVec 32 := Scf.iv c0_i32_39 c1_i32_41 k0_t3
  let c1_i32_81 : BitVec 32 := 1#32
  let v111 : BitVec 32 := Scalar.muli arg8 c1_i32_81
  let v112 : BitVec 32 := Scalar.addi c0_i32_82 v111
  let c8_i32 : BitVec 32 := 8#32
  let v113 : BitVec 32 := Scalar.muli v112 c8_i32
  let v114 : BitVec 32 := v113
  let v119 : Index := Scalar.indexCast v114
  let c0_87 : Index := 0#32
  let c0_88 : Index := 0#32
  ![v119.toNat, 0, 0]
@[reducible] def k0_t4_loop : Scf.Loop 32 :=
  let c0_i32_48 : BitVec 32 := 0#32
  let c18_i32_49 : BitVec 32 := 18#32
  let v71 : BitVec 32 := Scalar.addi c0_i32_48 c18_i32_49
  let c1_i32_50 : BitVec 32 := 1#32
  ⟨c0_i32_48, v71, c1_i32_50⟩
def k0_mult4 (k0_t4 : Fin k0_t4_loop.trips) : BitVec 32 :=
  let c0_i32_82 : BitVec 32 := 0#32
  let c0_i32_48 : BitVec 32 := 0#32
  let c1_i32_50 : BitVec 32 := 1#32
  let arg8 : BitVec 32 := Scf.iv c0_i32_48 c1_i32_50 k0_t4
  let c1_i32_81 : BitVec 32 := 1#32
  let v111 : BitVec 32 := Scalar.muli arg8 c1_i32_81
  let v112 : BitVec 32 := Scalar.addi c0_i32_82 v111
  let c8_i32 : BitVec 32 := 8#32
  let v113 : BitVec 32 := Scalar.muli v112 c8_i32
  v113
def k0_off7 (k0_t4 : Fin k0_t4_loop.trips) : Fin 5 → Nat :=
  let c0_83 : Index := 0#32
  let c0_i32_82 : BitVec 32 := 0#32
  let c0_i32_48 : BitVec 32 := 0#32
  let c1_i32_50 : BitVec 32 := 1#32
  let arg8 : BitVec 32 := Scf.iv c0_i32_48 c1_i32_50 k0_t4
  let c1_i32_81 : BitVec 32 := 1#32
  let v111 : BitVec 32 := Scalar.muli arg8 c1_i32_81
  let v112 : BitVec 32 := Scalar.addi c0_i32_82 v111
  let c8_i32 : BitVec 32 := 8#32
  let v113 : BitVec 32 := Scalar.muli v112 c8_i32
  let v114 : BitVec 32 := v113
  let v115 : Index := Scalar.indexCast v114
  let c0_84 : Index := 0#32
  let c0_85 : Index := 0#32
  let c0_86 : Index := 0#32
  ![0, v115.toNat, 0, 0, 0]
def k0_off8 (k0_t4 : Fin k0_t4_loop.trips) : Fin 3 → Nat :=
  let c0_i32_82 : BitVec 32 := 0#32
  let c0_i32_48 : BitVec 32 := 0#32
  let c1_i32_50 : BitVec 32 := 1#32
  let arg8 : BitVec 32 := Scf.iv c0_i32_48 c1_i32_50 k0_t4
  let c1_i32_81 : BitVec 32 := 1#32
  let v111 : BitVec 32 := Scalar.muli arg8 c1_i32_81
  let v112 : BitVec 32 := Scalar.addi c0_i32_82 v111
  let c8_i32 : BitVec 32 := 8#32
  let v113 : BitVec 32 := Scalar.muli v112 c8_i32
  let v114 : BitVec 32 := v113
  let v123 : Index := Scalar.indexCast v114
  let c0_88 : Index := 0#32
  let c0_89 : Index := 0#32
  ![v123.toNat, 0, 0]
@[reducible] def k0_t5_loop : Scf.Loop 32 :=
  let c0_i32_64 : BitVec 32 := 0#32
  let c18_i32_65 : BitVec 32 := 18#32
  let v89 : BitVec 32 := Scalar.addi c0_i32_64 c18_i32_65
  let c1_i32_66 : BitVec 32 := 1#32
  ⟨c0_i32_64, v89, c1_i32_66⟩
def k0_mult5 (k0_t5 : Fin k0_t5_loop.trips) : BitVec 32 :=
  let c0_i32_82 : BitVec 32 := 0#32
  let c0_i32_64 : BitVec 32 := 0#32
  let c1_i32_66 : BitVec 32 := 1#32
  let arg8 : BitVec 32 := Scf.iv c0_i32_64 c1_i32_66 k0_t5
  let c1_i32_81 : BitVec 32 := 1#32
  let v111 : BitVec 32 := Scalar.muli arg8 c1_i32_81
  let v112 : BitVec 32 := Scalar.addi c0_i32_82 v111
  let c8_i32 : BitVec 32 := 8#32
  let v113 : BitVec 32 := Scalar.muli v112 c8_i32
  v113
def k0_off9 (k0_t5 : Fin k0_t5_loop.trips) : Fin 5 → Nat :=
  let c0_83 : Index := 0#32
  let c0_i32_82 : BitVec 32 := 0#32
  let c0_i32_64 : BitVec 32 := 0#32
  let c1_i32_66 : BitVec 32 := 1#32
  let arg8 : BitVec 32 := Scf.iv c0_i32_64 c1_i32_66 k0_t5
  let c1_i32_81 : BitVec 32 := 1#32
  let v111 : BitVec 32 := Scalar.muli arg8 c1_i32_81
  let v112 : BitVec 32 := Scalar.addi c0_i32_82 v111
  let c8_i32 : BitVec 32 := 8#32
  let v113 : BitVec 32 := Scalar.muli v112 c8_i32
  let v114 : BitVec 32 := v113
  let v115 : Index := Scalar.indexCast v114
  let c0_84 : Index := 0#32
  let c0_85 : Index := 0#32
  let c0_86 : Index := 0#32
  ![0, v115.toNat, 0, 0, 0]
def k0_off10 (k0_t5 : Fin k0_t5_loop.trips) : Fin 3 → Nat :=
  let c0_i32_82 : BitVec 32 := 0#32
  let c0_i32_64 : BitVec 32 := 0#32
  let c1_i32_66 : BitVec 32 := 1#32
  let arg8 : BitVec 32 := Scf.iv c0_i32_64 c1_i32_66 k0_t5
  let c1_i32_81 : BitVec 32 := 1#32
  let v111 : BitVec 32 := Scalar.muli arg8 c1_i32_81
  let v112 : BitVec 32 := Scalar.addi c0_i32_82 v111
  let c8_i32 : BitVec 32 := 8#32
  let v113 : BitVec 32 := Scalar.muli v112 c8_i32
  let v114 : BitVec 32 := v113
  let v119 : Index := Scalar.indexCast v114
  let c0_87 : Index := 0#32
  let c0_88 : Index := 0#32
  ![v119.toNat, 0, 0]
def cc0_transform_0 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S1x144x16x16x144 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 2 → Memref sig .tc .vmem S1x144x144 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x16x16x144 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x16x144 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S8x144x16x16x12x12_S8x144x16x16x144 : S8x144x16x16x12x12.ShapeCasts S8x144x16x16x144
  bitsLt_bf16_f32 : FTy.bits .bf16 < FTy.bits .f32
  shapeCasts_S8x144x12x12_S8x144x144 : S8x144x12x12.ShapeCasts S8x144x144
  inb_S1x144x144_S1x144x144_0_0_0 : ∀ a, (![0, 0, 0] : Fin 3 → Nat) a + S1x144x144.size a ≤ S1x144x144.size a
  h_S1x144x144 : 0 < S1x144x144.numel
  shapeCasts_S1x144x144_S144x144 : S1x144x144.ShapeCasts S144x144
  shapeCasts_S144x144_S144x1x144 : S144x144.ShapeCasts S144x1x144
  shapeCasts_S144x1x144_S144x1x144 : S144x1x144.ShapeCasts S144x1x144
  broadcasts_S144x1x144_S144x16x144 : S144x1x144.Broadcasts S144x16x144
  inb_S144x16x144_S144x16x144_0_0_0 : ∀ a, (![0, 0, 0] : Fin 3 → Nat) a + S144x16x144.size a ≤ S144x16x144.size a
  h_S144x16x144 : 0 < S144x16x144.numel
  shapeCasts_S144x16x144_S144x16x144 : S144x16x144.ShapeCasts S144x16x144
  reduces_S144x16x144_S144x144 : S144x16x144.Reduces [1] S144x144
  inb_S16x16x144_S16x16x144_0_0_0 : ∀ a, (![0, 0, 0] : Fin 3 → Nat) a + S16x16x144.size a ≤ S16x16x144.size a
  h_S16x16x144 : 0 < S16x16x144.numel
  shapeCasts_S16x16x144_S16x16x144 : S16x16x144.ShapeCasts S16x16x144
  h_S1x8x16x16x144 : 0 < S1x8x16x16x144.numel
  shapeCasts_S1x8x16x16x144_S8x16x16x144 : S1x8x16x16x144.ShapeCasts S8x16x16x144
  h_S8x16x144 : 0 < S8x16x144.numel
  shapeCasts_S8x16x144_S8x16x1x144 : S8x16x144.ShapeCasts S8x16x1x144
  broadcasts_S8x16x1x144_S8x16x16x144 : S8x16x1x144.Broadcasts S8x16x16x144
  reduces_S8x16x16x144_S16x16x144 : S8x16x16x144.Reduces [0] S16x16x144
  reduces_S16x16x144_S16x144 : S16x16x144.Reduces [1] S16x144
  shapeCasts_S16x144_S16x1x144 : S16x144.ShapeCasts S16x1x144
  broadcasts_S16x1x144_S16x16x144 : S16x1x144.Broadcasts S16x16x144
  shapeCasts_S16x16x144_S1x16x16x144 : S16x16x144.ShapeCasts S1x16x16x144
  broadcasts_S1x16x16x144_S8x16x16x144 : S1x16x16x144.Broadcasts S8x16x16x144
  reduces_S8x16x16x144_S8x16x144 : S8x16x16x144.Reduces [2] S8x16x144
  shapeCasts_S8x16x144_S8x16x144 : S8x16x144.ShapeCasts S8x16x144
  inb_S1x16x16x144_S1x16x16x144_0_0_0_0 : ∀ a, (![0, 0, 0, 0] : Fin 4 → Nat) a + S1x16x16x144.size a ≤ S1x16x16x144.size a
  h_S1x16x16x144 : 0 < S1x16x16x144.numel
  shapeCasts_S1x16x16x144_S16x16x144 : S1x16x16x144.ShapeCasts S16x16x144
  inb_S1x16x144_S1x16x144_0_0_0 : ∀ a, (![0, 0, 0] : Fin 3 → Nat) a + S1x16x144.size a ≤ S1x16x144.size a
  h_S1x16x144 : 0 < S1x16x144.numel
  shapeCasts_S1x16x144_S16x144 : S1x16x144.ShapeCasts S16x144
  shapeCasts_S16x144_S1x16x144 : S16x144.ShapeCasts S1x16x144
  shapeCasts_S8x16x16x144_S8x16x16x12x12 : S8x16x16x144.ShapeCasts S8x16x16x12x12
  shapeCasts_S8x16x144_S8x16x12x12 : S8x16x144.ShapeCasts S8x16x12x12
  hrank0 : 0 < grid0.rank
  k0_t1_ok : k0_t1_loop.OK
  k0_mult1_dvd : ∀ k0_t1 : Fin k0_t1_loop.trips, 8 ∣ (k0_mult1 k0_t1).toNat
  k0_off1_inb : ∀ k0_t1 : Fin k0_t1_loop.trips, ∀ a, (k0_off1 k0_t1) a + S1x8x16x16x144.size a ≤ S1x144x16x16x144.size a
  k0_off2_inb : ∀ k0_t1 : Fin k0_t1_loop.trips, ∀ a, (k0_off2 k0_t1) a + S8x16x144.size a ≤ S144x16x144.size a
  k0_t2_ok : k0_t2_loop.OK
  k0_mult2_dvd : ∀ k0_t2 : Fin k0_t2_loop.trips, 8 ∣ (k0_mult2 k0_t2).toNat
  k0_off3_inb : ∀ k0_t2 : Fin k0_t2_loop.trips, ∀ a, (k0_off3 k0_t2) a + S1x8x16x16x144.size a ≤ S1x144x16x16x144.size a
  k0_off4_inb : ∀ k0_t2 : Fin k0_t2_loop.trips, ∀ a, (k0_off4 k0_t2) a + S8x16x144.size a ≤ S144x16x144.size a
  k0_t3_ok : k0_t3_loop.OK
  k0_mult3_dvd : ∀ k0_t3 : Fin k0_t3_loop.trips, 8 ∣ (k0_mult3 k0_t3).toNat
  k0_off5_inb : ∀ k0_t3 : Fin k0_t3_loop.trips, ∀ a, (k0_off5 k0_t3) a + S1x8x16x16x144.size a ≤ S1x144x16x16x144.size a
  k0_off6_inb : ∀ k0_t3 : Fin k0_t3_loop.trips, ∀ a, (k0_off6 k0_t3) a + S8x16x144.size a ≤ S144x16x144.size a
  k0_t4_ok : k0_t4_loop.OK
  k0_mult4_dvd : ∀ k0_t4 : Fin k0_t4_loop.trips, 8 ∣ (k0_mult4 k0_t4).toNat
  k0_off7_inb : ∀ k0_t4 : Fin k0_t4_loop.trips, ∀ a, (k0_off7 k0_t4) a + S1x8x16x16x144.size a ≤ S1x144x16x16x144.size a
  k0_off8_inb : ∀ k0_t4 : Fin k0_t4_loop.trips, ∀ a, (k0_off8 k0_t4) a + S8x16x144.size a ≤ S144x16x144.size a
  k0_t5_ok : k0_t5_loop.OK
  k0_mult5_dvd : ∀ k0_t5 : Fin k0_t5_loop.trips, 8 ∣ (k0_mult5 k0_t5).toNat
  k0_off9_inb : ∀ k0_t5 : Fin k0_t5_loop.trips, ∀ a, (k0_off9 k0_t5) a + S1x8x16x16x144.size a ≤ S1x144x16x16x144.size a
  k0_off10_inb : ∀ k0_t5 : Fin k0_t5_loop.trips, ∀ a, (k0_off10 k0_t5) a + S8x16x144.size a ≤ S144x16x144.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x144x16x16x144.size a ≤ S8x144x16x16x144.size a
  hwx0_0 : ∀ i : grid0.Coords, EltTy.bits .bf16 = 32 ∨ (Rect.block (s := S8x144x16x16x144) S1x144x16x16x144.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x144x144.size a ≤ S8x144x144.size a
  hwx0_1 : ∀ i : grid0.Coords, EltTy.bits .f32 = 32 ∨ (Rect.block (s := S8x144x144) S1x144x144.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x16x16x144.size a ≤ S8x16x16x144.size a
  hwx0_2 : ∀ i : grid0.Coords, EltTy.bits .f32 = 32 ∨ (Rect.block (s := S8x16x16x144) S1x16x16x144.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x16x144.size a ≤ S8x16x144.size a
  hwx0_3 : ∀ i : grid0.Coords, EltTy.bits .f32 = 32 ∨ (Rect.block (s := S8x16x144) S1x16x144.size (cc0_transform_3 i) (hinb0_3 i)).WholeWords (EltTy.packing .f32)

variable [Facts₀]

abbrev win0_0 : Pipeline.Window sig grid0 :=
  Pipeline.Window.ofSpec (Memref.whole main_v1) S1x144x16x16x144.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1x144x144.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3_0) S1x16x16x144.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3_1) S1x16x144.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x144x16x16x12x12 : Shape := ⟨6, ![8, 144, 16, 16, 12, 12]⟩
abbrev S8x144x12x12 : Shape := ⟨4, ![8, 144, 12, 12]⟩
abbrev S8x144x1x1x12x12 : Shape := ⟨6, ![8, 144, 1, 1, 12, 12]⟩
abbrev S_ : Shape := ⟨0, ![]⟩
abbrev S8x144x16x1x12x12 : Shape := ⟨6, ![8, 144, 16, 1, 12, 12]⟩
abbrev S8x144x1x12x12 : Shape := ⟨5, ![8, 144, 1, 12, 12]⟩
abbrev S8x16x16x12x12 : Shape := ⟨5, ![8, 16, 16, 12, 12]⟩
abbrev S8x1x16x16x12x12 : Shape := ⟨6, ![8, 1, 16, 16, 12, 12]⟩
abbrev S8x1x16x12x12 : Shape := ⟨5, ![8, 1, 16, 12, 12]⟩
abbrev S8x1x16x1x12x12 : Shape := ⟨6, ![8, 1, 16, 1, 12, 12]⟩
abbrev S8x144x16x12x12 : Shape := ⟨5, ![8, 144, 16, 12, 12]⟩
abbrev S8x16x12x12 : Shape := ⟨4, ![8, 16, 12, 12]⟩

abbrev nBuf : Space → Nat
  | .hbm => 122
  | .vmem => 0
  | .smem => 0
  | _ => 0

abbrev bufTy : (tb : Table) → Fin (tcTables nBuf tb) → BufTy
  | .hbm, ⟨0, _⟩ => ⟨S8x144x16x16x12x12, .f32⟩
  | .hbm, ⟨1, _⟩ => ⟨S8x144x12x12, .f32⟩
  | .hbm, ⟨2, _⟩ => ⟨S8x144x1x1x12x12, .f32⟩
  | .hbm, ⟨3, _⟩ => ⟨S_, .f32⟩
  | .hbm, ⟨4, _⟩ => ⟨S8x144x1x1x12x12, .f32⟩
  | .hbm, ⟨5, _⟩ => ⟨S8x144x1x1x12x12, .f32⟩
  | .hbm, ⟨6, _⟩ => ⟨S8x144x16x1x12x12, .f32⟩
  | .hbm, ⟨7, _⟩ => ⟨S_, .f32⟩
  | .hbm, ⟨8, _⟩ => ⟨S8x144x1x12x12, .f32⟩
  | .hbm, ⟨9, _⟩ => ⟨S_, .f32⟩
  | .hbm, ⟨10, _⟩ => ⟨S8x144x1x12x12, .f32⟩
  | .hbm, ⟨11, _⟩ => ⟨S8x144x1x12x12, .f32⟩
  | .hbm, ⟨12, _⟩ => ⟨S8x144x1x1x12x12, .f32⟩
  | .hbm, ⟨13, _⟩ => ⟨S8x144x16x1x12x12, .f32⟩
  | .hbm, ⟨14, _⟩ => ⟨S8x144x16x1x12x12, .f32⟩
  | .hbm, ⟨15, _⟩ => ⟨S8x144x16x1x12x12, .f32⟩
  | .hbm, ⟨16, _⟩ => ⟨S_, .f32⟩
  | .hbm, ⟨17, _⟩ => ⟨S8x144x1x12x12, .f32⟩
  | .hbm, ⟨18, _⟩ => ⟨S8x144x1x1x12x12, .f32⟩
  | .hbm, ⟨19, _⟩ => ⟨S8x144x16x1x12x12, .f32⟩
  | .hbm, ⟨20, _⟩ => ⟨S8x144x16x1x12x12, .f32⟩
  | .hbm, ⟨21, _⟩ => ⟨S8x144x16x16x12x12, .f32⟩
  | .hbm, ⟨22, _⟩ => ⟨S8x144x16x16x12x12, .f32⟩
  | .hbm, ⟨23, _⟩ => ⟨S_, .f32⟩
  | .hbm, ⟨24, _⟩ => ⟨S8x16x16x12x12, .f32⟩
  | .hbm, ⟨25, _⟩ => ⟨S8x1x16x16x12x12, .f32⟩
  | .hbm, ⟨26, _⟩ => ⟨S8x1x16x16x12x12, .f32⟩
  | .hbm, ⟨27, _⟩ => ⟨S_, .f32⟩
  | .hbm, ⟨28, _⟩ => ⟨S8x1x16x12x12, .f32⟩
  | .hbm, ⟨29, _⟩ => ⟨S8x1x16x1x12x12, .f32⟩
  | .hbm, ⟨30, _⟩ => ⟨S_, .f32⟩
  | .hbm, ⟨31, _⟩ => ⟨S8x1x16x1x12x12, .f32⟩
  | .hbm, ⟨32, _⟩ => ⟨S8x1x16x1x12x12, .f32⟩
  | .hbm, ⟨33, _⟩ => ⟨S8x1x16x1x12x12, .f32⟩
  | .hbm, ⟨34, _⟩ => ⟨S8x1x16x16x12x12, .f32⟩
  | .hbm, ⟨35, _⟩ => ⟨S8x1x16x16x12x12, .f32⟩
  | .hbm, ⟨36, _⟩ => ⟨S8x1x16x1x12x12, .f32⟩
  | .hbm, ⟨37, _⟩ => ⟨S8x1x16x16x12x12, .f32⟩
  | .hbm, ⟨38, _⟩ => ⟨S8x1x16x16x12x12, .f32⟩
  | .hbm, ⟨39, _⟩ => ⟨S8x144x16x16x12x12, .f32⟩
  | .hbm, ⟨40, _⟩ => ⟨S8x144x16x16x12x12, .f32⟩
  | .hbm, ⟨41, _⟩ => ⟨S_, .f32⟩
  | .hbm, ⟨42, _⟩ => ⟨S8x144x16x12x12, .f32⟩
  | .hbm, ⟨43, _⟩ => ⟨S8x144x16x1x12x12, .f32⟩
  | .hbm, ⟨44, _⟩ => ⟨S8x144x16x1x12x12, .f32⟩
  | .hbm, ⟨45, _⟩ => ⟨S_, .f32⟩
  | .hbm, ⟨46, _⟩ => ⟨S8x144x1x12x12, .f32⟩
  | .hbm, ⟨47, _⟩ => ⟨S_, .f32⟩
  | .hbm, ⟨48, _⟩ => ⟨S8x144x1x12x12, .f32⟩
  | .hbm, ⟨49, _⟩ => ⟨S8x144x1x12x12, .f32⟩
  | .hbm, ⟨50, _⟩ => ⟨S8x144x1x1x12x12, .f32⟩
  | .hbm, ⟨51, _⟩ => ⟨S8x144x16x1x12x12, .f32⟩
  | .hbm, ⟨52, _⟩ => ⟨S8x144x16x1x12x12, .f32⟩
  | .hbm, ⟨53, _⟩ => ⟨S8x144x16x1x12x12, .f32⟩
  | .hbm, ⟨54, _⟩ => ⟨S_, .f32⟩
  | .hbm, ⟨55, _⟩ => ⟨S8x144x1x12x12, .f32⟩
  | .hbm, ⟨56, _⟩ => ⟨S8x144x1x1x12x12, .f32⟩
  | .hbm, ⟨57, _⟩ => ⟨S8x144x16x1x12x12, .f32⟩
  | .hbm, ⟨58, _⟩ => ⟨S8x144x16x1x12x12, .f32⟩
  | .hbm, ⟨59, _⟩ => ⟨S8x144x16x16x12x12, .f32⟩
  | .hbm, ⟨60, _⟩ => ⟨S8x144x16x16x12x12, .f32⟩
  | .hbm, ⟨61, _⟩ => ⟨S_, .f32⟩
  | .hbm, ⟨62, _⟩ => ⟨S8x16x16x12x12, .f32⟩
  | .hbm, ⟨63, _⟩ => ⟨S8x1x16x16x12x12, .f32⟩
  | .hbm, ⟨64, _⟩ => ⟨S8x1x16x16x12x12, .f32⟩
  | .hbm, ⟨65, _⟩ => ⟨S_, .f32⟩
  | .hbm, ⟨66, _⟩ => ⟨S8x1x16x12x12, .f32⟩
  | .hbm, ⟨67, _⟩ => ⟨S8x1x16x1x12x12, .f32⟩
  | .hbm, ⟨68, _⟩ => ⟨S_, .f32⟩
  | .hbm, ⟨69, _⟩ => ⟨S8x1x16x1x12x12, .f32⟩
  | .hbm, ⟨70, _⟩ => ⟨S8x1x16x1x12x12, .f32⟩
  | .hbm, ⟨71, _⟩ => ⟨S8x1x16x1x12x12, .f32⟩
  | .hbm, ⟨72, _⟩ => ⟨S8x1x16x16x12x12, .f32⟩
  | .hbm, ⟨73, _⟩ => ⟨S8x1x16x16x12x12, .f32⟩
  | .hbm, ⟨74, _⟩ => ⟨S8x1x16x1x12x12, .f32⟩
  | .hbm, ⟨75, _⟩ => ⟨S8x1x16x16x12x12, .f32⟩
  | .hbm, ⟨76, _⟩ => ⟨S8x1x16x16x12x12, .f32⟩
  | .hbm, ⟨77, _⟩ => ⟨S8x144x16x16x12x12, .f32⟩
  | .hbm, ⟨78, _⟩ => ⟨S8x144x16x16x12x12, .f32⟩
  | .hbm, ⟨79, _⟩ => ⟨S_, .f32⟩
  | .hbm, ⟨80, _⟩ => ⟨S8x144x16x12x12, .f32⟩
  | .hbm, ⟨81, _⟩ => ⟨S8x144x16x1x12x12, .f32⟩
  | .hbm, ⟨82, _⟩ => ⟨S8x144x16x1x12x12, .f32⟩
  | .hbm, ⟨83, _⟩ => ⟨S_, .f32⟩
  | .hbm, ⟨84, _⟩ => ⟨S8x144x1x12x12, .f32⟩
  | .hbm, ⟨85, _⟩ => ⟨S_, .f32⟩
  | .hbm, ⟨86, _⟩ => ⟨S8x144x1x12x12, .f32⟩
  | .hbm, ⟨87, _⟩ => ⟨S8x144x1x12x12, .f32⟩
  | .hbm, ⟨88, _⟩ => ⟨S8x144x1x1x12x12, .f32⟩
  | .hbm, ⟨89, _⟩ => ⟨S8x144x16x1x12x12, .f32⟩
  | .hbm, ⟨90, _⟩ => ⟨S8x144x16x1x12x12, .f32⟩
  | .hbm, ⟨91, _⟩ => ⟨S8x144x16x1x12x12, .f32⟩
  | .hbm, ⟨92, _⟩ => ⟨S_, .f32⟩
  | .hbm, ⟨93, _⟩ => ⟨S8x144x1x12x12, .f32⟩
  | .hbm, ⟨94, _⟩ => ⟨S8x144x1x1x12x12, .f32⟩
  | .hbm, ⟨95, _⟩ => ⟨S8x144x16x1x12x12, .f32⟩
  | .hbm, ⟨96, _⟩ => ⟨S8x144x16x1x12x12, .f32⟩
  | .hbm, ⟨97, _⟩ => ⟨S8x144x16x16x12x12, .f32⟩
  | .hbm, ⟨98, _⟩ => ⟨S8x144x16x16x12x12, .f32⟩
  | .hbm, ⟨99, _⟩ => ⟨S_, .f32⟩
  | .hbm, ⟨100, _⟩ => ⟨S8x16x16x12x12, .f32⟩
  | .hbm, ⟨101, _⟩ => ⟨S8x1x16x16x12x12, .f32⟩
  | .hbm, ⟨102, _⟩ => ⟨S8x1x16x16x12x12, .f32⟩
  | .hbm, ⟨103, _⟩ => ⟨S_, .f32⟩
  | .hbm, ⟨104, _⟩ => ⟨S8x1x16x12x12, .f32⟩
  | .hbm, ⟨105, _⟩ => ⟨S8x1x16x1x12x12, .f32⟩
  | .hbm, ⟨106, _⟩ => ⟨S_, .f32⟩
  | .hbm, ⟨107, _⟩ => ⟨S8x1x16x1x12x12, .f32⟩
  | .hbm, ⟨108, _⟩ => ⟨S8x1x16x1x12x12, .f32⟩
  | .hbm, ⟨109, _⟩ => ⟨S8x1x16x1x12x12, .f32⟩
  | .hbm, ⟨110, _⟩ => ⟨S8x1x16x16x12x12, .f32⟩
  | .hbm, ⟨111, _⟩ => ⟨S8x1x16x16x12x12, .f32⟩
  | .hbm, ⟨112, _⟩ => ⟨S8x1x16x1x12x12, .f32⟩
  | .hbm, ⟨113, _⟩ => ⟨S8x1x16x16x12x12, .f32⟩
  | .hbm, ⟨114, _⟩ => ⟨S8x1x16x16x12x12, .f32⟩
  | .hbm, ⟨115, _⟩ => ⟨S8x1x16x16x12x12, .f32⟩
  | .hbm, ⟨116, _⟩ => ⟨S_, .f32⟩
  | .hbm, ⟨117, _⟩ => ⟨S8x1x16x12x12, .f32⟩
  | .hbm, ⟨118, _⟩ => ⟨S8x1x16x1x12x12, .f32⟩
  | .hbm, ⟨119, _⟩ => ⟨S8x1x16x1x12x12, .f32⟩
  | .hbm, ⟨120, _⟩ => ⟨S8x16x16x12x12, .f32⟩
  | .hbm, ⟨121, _⟩ => ⟨S8x16x12x12, .f32⟩
  | _, _ => ⟨S8x144x16x16x12x12, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_3 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_4 : Ref sig .tc := ⟨.hbm, 27, rfl⟩
abbrev main_v20 : Ref sig .tc := ⟨.hbm, 28, rfl⟩
abbrev main_v21 : Ref sig .tc := ⟨.hbm, 29, rfl⟩
abbrev main_cst_5 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_cst_6 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_cst_7 : Ref sig .tc := ⟨.hbm, 45, rfl⟩
abbrev main_v35 : Ref sig .tc := ⟨.hbm, 46, rfl⟩
abbrev main_cst_8 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_cst_9 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_cst_10 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_cst_11 : Ref sig .tc := ⟨.hbm, 65, rfl⟩
abbrev main_v51 : Ref sig .tc := ⟨.hbm, 66, rfl⟩
abbrev main_v52 : Ref sig .tc := ⟨.hbm, 67, rfl⟩
abbrev main_cst_12 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_cst_13 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_cst_14 : Ref sig .tc := ⟨.hbm, 83, rfl⟩
abbrev main_v66 : Ref sig .tc := ⟨.hbm, 84, rfl⟩
abbrev main_cst_15 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_cst_16 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_cst_17 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_cst_18 : Ref sig .tc := ⟨.hbm, 103, rfl⟩
abbrev main_v82 : Ref sig .tc := ⟨.hbm, 104, rfl⟩
abbrev main_v83 : Ref sig .tc := ⟨.hbm, 105, rfl⟩
abbrev main_cst_19 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_cst_20 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩

abbrev nD : Nat := 1
abbrev τ : Topo := Topo.v7x

variable {F : FTy → Type} [FloatOps F]

class Facts₀ : Prop where
  bcast_S8x144x12x12_S8x144x1x1x12x12_0_1_4_5 : S8x144x12x12.BroadcastsInDim S8x144x1x1x12x12 (![0, 1, 4, 5] : Fin 4 → Fin S8x144x1x1x12x12.rank)
  bcast_S_S8x144x1x1x12x12 : S_.BroadcastsInDim S8x144x1x1x12x12 (![] : Fin 0 → Fin S8x144x1x1x12x12.rank)
  bcast_S8x144x1x1x12x12_S8x144x16x1x12x12_0_1_2_3_4_5 : S8x144x1x1x12x12.BroadcastsInDim S8x144x16x1x12x12 (![0, 1, 2, 3, 4, 5] : Fin 6 → Fin S8x144x16x1x12x12.rank)
  reducesTo_S8x144x16x1x12x12_S8x144x1x12x12_d2 : S8x144x16x1x12x12.ReducesTo [2] S8x144x1x12x12
  h_S_ : 0 < S_.numel
  bcast_S_S8x144x1x12x12 : S_.BroadcastsInDim S8x144x1x12x12 (![] : Fin 0 → Fin S8x144x1x12x12.rank)
  bcast_S8x144x1x12x12_S8x144x1x1x12x12_0_1_3_4_5 : S8x144x1x12x12.BroadcastsInDim S8x144x1x1x12x12 (![0, 1, 3, 4, 5] : Fin 5 → Fin S8x144x1x1x12x12.rank)
  bcast_S8x144x16x1x12x12_S8x144x16x16x12x12_0_1_2_3_4_5 : S8x144x16x1x12x12.BroadcastsInDim S8x144x16x16x12x12 (![0, 1, 2, 3, 4, 5] : Fin 6 → Fin S8x144x16x16x12x12.rank)
  reducesTo_S8x144x16x16x12x12_S8x16x16x12x12_d1 : S8x144x16x16x12x12.ReducesTo [1] S8x16x16x12x12
  bcast_S8x16x16x12x12_S8x1x16x16x12x12_0_2_3_4_5 : S8x16x16x12x12.BroadcastsInDim S8x1x16x16x12x12 (![0, 2, 3, 4, 5] : Fin 5 → Fin S8x1x16x16x12x12.rank)
  reducesTo_S8x1x16x16x12x12_S8x1x16x12x12_d3 : S8x1x16x16x12x12.ReducesTo [3] S8x1x16x12x12
  bcast_S8x1x16x12x12_S8x1x16x1x12x12_0_1_2_4_5 : S8x1x16x12x12.BroadcastsInDim S8x1x16x1x12x12 (![0, 1, 2, 4, 5] : Fin 5 → Fin S8x1x16x1x12x12.rank)
  bcast_S_S8x1x16x1x12x12 : S_.BroadcastsInDim S8x1x16x1x12x12 (![] : Fin 0 → Fin S8x1x16x1x12x12.rank)
  bcast_S8x1x16x1x12x12_S8x1x16x16x12x12_0_1_2_3_4_5 : S8x1x16x1x12x12.BroadcastsInDim S8x1x16x16x12x12 (![0, 1, 2, 3, 4, 5] : Fin 6 → Fin S8x1x16x16x12x12.rank)
  bcast_S8x1x16x16x12x12_S8x144x16x16x12x12_0_1_2_3_4_5 : S8x1x16x16x12x12.BroadcastsInDim S8x144x16x16x12x12 (![0, 1, 2, 3, 4, 5] : Fin 6 → Fin S8x144x16x16x12x12.rank)
  reducesTo_S8x144x16x16x12x12_S8x144x16x12x12_d3 : S8x144x16x16x12x12.ReducesTo [3] S8x144x16x12x12
  bcast_S8x144x16x12x12_S8x144x16x1x12x12_0_1_2_4_5 : S8x144x16x12x12.BroadcastsInDim S8x144x16x1x12x12 (![0, 1, 2, 4, 5] : Fin 5 → Fin S8x144x16x1x12x12.rank)
  shapeCasts_S8x1x16x16x12x12_S8x16x16x12x12 : S8x1x16x16x12x12.ShapeCasts S8x16x16x12x12
  shapeCasts_S8x1x16x1x12x12_S8x16x12x12 : S8x1x16x1x12x12.ShapeCasts S8x16x12x12

variable [Facts₀]

class Facts : Prop extends Facts₀ where

variable [Facts]
-- ==== Proof.Routing.lean ====
/-
  Dynamic routing between capsules, at one batch element and one pixel, as plain mathematics on the extended reals.

  There are 144 input capsules `B`, 16 output capsules `c`, and pose vectors of 16 components `p`; `U B c p` is
  input capsule `B`'s vote for output capsule `c` and `A B` its activation. The routing logits start at
  `A B / 16` for every `c`; each of three rounds turns the logits of one input capsule into coupling coefficients by
  a softmax over `c` (shifted by the row maximum), forms each output capsule's weighted vote
  `s c p = ∑ B, couple B c · U B c p`, squashes it, `v c = (|s c|² / (1 + |s c|²)) · s c / |s c|`, and — except
  after the last round — adds to each logit the agreement `∑ p, U B c p · v c p`. The results are the last `v` and
  its norms. Every sum is a finite sum of extended reals; nothing here is specific to either program, and both
  programs are shown to compute exactly these terms (the three float words are kept as words: both programs
  spell the same ones).
-/
import Idealize.ShloMosaic.PureOps.Ideal

noncomputable section

namespace Cert.Routing

open Idealize.ShloMosaic
open scoped BigOperators

/-- The float words both programs spell: `1/16` (the uniform prior over the output capsules), `-∞` (where a
    maximum starts) and `1`. -/
abbrev wScale : EReal := Ideal.ofBits .f32 0x3D800000#32
abbrev wNegInf : EReal := Ideal.ofBits .f32 0xFF800000#32
abbrev wOne : EReal := Ideal.ofBits .f32 0x3F800000#32

/-- The initial logits: the activation scaled, the same for every output capsule. -/
def logit0 (A : Fin 144 → EReal) : Fin 144 → Fin 16 → EReal := fun B _ => A B * wScale

/-- The largest logit of one input capsule. -/
def rowMax (r : Fin 16 → EReal) : EReal := (Finset.univ : Finset (Fin 16)).fold max wNegInf r

/-- The shifted exponential of a logit. -/
def expo (r : Fin 16 → EReal) (c : Fin 16) : EReal := Ideal.exp (r c - rowMax r)

/-- The coupling coefficients of one input capsule: the softmax of its logits over the output capsules. -/
def couple (r : Fin 16 → EReal) (c : Fin 16) : EReal := Ideal.div (expo r c) (∑ c' : Fin 16, expo r c')

/-- Output capsule `c`'s weighted vote. -/
def vote (R : Fin 144 → Fin 16 → EReal) (U : Fin 144 → Fin 16 → Fin 16 → EReal) (c p : Fin 16) : EReal :=
  ∑ B : Fin 144, couple (R B) c * U B c p

/-- The squared norm of a pose vector. -/
def norm2 (s : Fin 16 → EReal) : EReal := ∑ p : Fin 16, s p * s p

/-- The squashing nonlinearity. -/
def squash (s : Fin 16 → EReal) (p : Fin 16) : EReal :=
  Ideal.div (Ideal.div (norm2 s) (wOne + norm2 s) * s p) (Ideal.sqrt (norm2 s))

/-- The squashed output capsules of one round. -/
def outv (R : Fin 144 → Fin 16 → EReal) (U : Fin 144 → Fin 16 → Fin 16 → EReal) (c p : Fin 16) : EReal :=
  squash (vote R U c) p

/-- The logits after one round: each gains the agreement of its vote with the output capsule. -/
def step (R : Fin 144 → Fin 16 → EReal) (U : Fin 144 → Fin 16 → Fin 16 → EReal) : Fin 144 → Fin 16 → EReal :=
  fun B c => R B c + ∑ p : Fin 16, U B c p * outv R U c p

/-- The output capsules after three rounds, -/
def vOut (U : Fin 144 → Fin 16 → Fin 16 → EReal) (A : Fin 144 → EReal) (c p : Fin 16) : EReal :=
  outv (step (step (logit0 A) U) U) U c p

/-- and their lengths. -/
def aOut (U : Fin 144 → Fin 16 → Fin 16 → EReal) (A : Fin 144 → EReal) (c : Fin 16) : EReal :=
  Ideal.sqrt (∑ p : Fin 16, vOut U A c p * vOut U A c p)

end Cert.Routing

end
-- ==== Proof.PixelLayout.lean ====
/-
  The pixel layout: the two pixel axes `(y, z)`, each of extent 12, and the single pixel axis `x` of extent 144
  are matched row-major, `x = 12·y + z`. A reshape that merges the two axes into one, or splits the one into two,
  leaves every other coordinate alone, so at an index written by coordinates it reads the operand at the index with
  the pixel coordinates exchanged for their merged (or split) form. Nothing here depends on the element type.
-/
import proofs.«123957_j17686675325395_1_alg».proof.KernelIdeal
import Idealize.ShloMosaic.Lib.ValueIdx
import Idealize.ShloMosaic.Lib.ValueIdxRank6
import Idealize.ShloMosaic.Lib.Pipeline.Value

namespace Cert.PixelLayout

open Idealize.ShloMosaic Idealize.ShloMosaic.ValueIdx Cert.KernelIdeal

/-- The merged pixel coordinate of the pixel `(y, z)`: `12·y + z`. -/
def pix (y z : Fin 12) : Fin 144 := ⟨12 * y.val + z.val, by omega⟩

@[simp] theorem pix_val (y z : Fin 12) : (pix y z).val = 12 * y.val + z.val := rfl

/-- Every merged pixel coordinate is the merge of its quotient and remainder by 12. -/
theorem pix_surj (x : Fin 144) : ∃ y z : Fin 12, x = pix y z :=
  ⟨⟨x.val / 12, by omega⟩, ⟨x.val % 12, Nat.mod_lt _ (by omega)⟩, Fin.ext (by
    show x.val = 12 * (x.val / 12) + x.val % 12
    omega)⟩

/-- The merge is injective: a merged coordinate determines both pixel coordinates. -/
theorem pix_inj {y z y' z' : Fin 12} (h : pix y z = pix y' z') : y = y' ∧ z = z' := by
  have hv : 12 * y.val + z.val = 12 * y'.val + z'.val := congrArg Fin.val h
  exact ⟨Fin.ext (by omega), Fin.ext (by omega)⟩

variable {α : Type}

/-- The votes with the pixel axes merged read, at `(b, B, c, p, 12·y + z)`, the votes at `(b, B, c, p, y, z)`. -/
theorem merge_u (X : S8x144x16x16x12x12.Idx → α) (h : S8x144x16x16x12x12.ShapeCasts S8x144x16x16x144)
    (b : Fin 8) (B : Fin 144) (c p : Fin 16) (y z : Fin 12) :
    shapeCast S8x144x16x16x144 X h (ix5 b B c p (pix y z)) = X (ix6 b B c p y z) :=
  shapeCast_apply X h _ _ (by
    rw [Shape.rowMajor_val_six, Shape.rowMajor_val_five]
    show (((((b.val * 144 + B.val) * 16 + c.val) * 16 + p.val) * 12 + y.val) * 12 + z.val)
      = ((((b.val * 144 + B.val) * 16 + c.val) * 16 + p.val) * 144 + (12 * y.val + z.val))
    omega)

/-- The activations with the pixel axes merged read, at `(b, B, 12·y + z)`, the activations at `(b, B, y, z)`. -/
theorem merge_a (A : S8x144x12x12.Idx → α) (h : S8x144x12x12.ShapeCasts S8x144x144)
    (b : Fin 8) (B : Fin 144) (y z : Fin 12) :
    shapeCast S8x144x144 A h (ix3 b B (pix y z)) = A (ix4 b B y z) :=
  shapeCast_apply A h _ _ (by
    rw [Shape.rowMajor_val_four, Shape.rowMajor_val_three]
    show (((b.val * 144 + B.val) * 12 + y.val) * 12 + z.val) = ((b.val * 144 + B.val) * 144 + (12 * y.val + z.val))
    omega)

/-- The output poses with the pixel axis split read, at `(b, c, p, y, z)`, the poses at `(b, c, p, 12·y + z)`. -/
theorem split_v (O : S8x16x16x144.Idx → α) (h : S8x16x16x144.ShapeCasts S8x16x16x12x12)
    (b : Fin 8) (c p : Fin 16) (y z : Fin 12) :
    shapeCast S8x16x16x12x12 O h (ix5 b c p y z) = O (ix4 b c p (pix y z)) :=
  shapeCast_apply O h _ _ (by
    rw [Shape.rowMajor_val_four, Shape.rowMajor_val_five]
    show (((b.val * 16 + c.val) * 16 + p.val) * 144 + (12 * y.val + z.val))
      = ((((b.val * 16 + c.val) * 16 + p.val) * 12 + y.val) * 12 + z.val)
    omega)

/-- The output activations with the pixel axis split read, at `(b, c, y, z)`, the activations at
    `(b, c, 12·y + z)`. -/
theorem split_a (O : S8x16x144.Idx → α) (h : S8x16x144.ShapeCasts S8x16x12x12)
    (b : Fin 8) (c : Fin 16) (y z : Fin 12) :
    shapeCast S8x16x12x12 O h (ix4 b c y z) = O (ix3 b c (pix y z)) :=
  shapeCast_apply O h _ _ (by
    rw [Shape.rowMajor_val_three, Shape.rowMajor_val_four]
    show ((b.val * 16 + c.val) * 144 + (12 * y.val + z.val)) = (((b.val * 16 + c.val) * 12 + y.val) * 12 + z.val)
    omega)

end Cert.PixelLayout
-- ==== Proof.Assembly.lean ====
/-
  The assembly: the two programs, read at the exact instance from memories that agree on the arguments, end with
  equal results.

  The kernel's run leaves its two results at arrays over the merged pixel axis, split back into the two pixel
  axes; read at `(b, c, p, 12·y + z)` and `(b, c, 12·y + z)` those arrays are the routing's output capsules and
  their lengths, of the votes `U B c p` = the first argument at `(b, B, c, p, y, z)` and the activations `A B` =
  the second at `(b, B, y, z)`. The reference's run leaves its two results at arrays which, read at
  `(b, c, p, y, z)` and `(b, c, y, z)`, are the same two quantities of the same votes and activations. So, index
  by index, the results are equal. The three parts are taken here as hypotheses.
-/
import proofs.«123957_j17686675325395_1_alg».proof.Defs
import proofs.«123957_j17686675325395_1_alg».proof.Proof.Gen.KernelIdeal.Frame
import proofs.«123957_j17686675325395_1_alg».proof.Proof.Gen.ReferenceIdeal.Run
import proofs.«123957_j17686675325395_1_alg».proof.Proof.Gen.Pre_finite_inputs
import proofs.«123957_j17686675325395_1_alg».proof.Proof.Routing
import proofs.«123957_j17686675325395_1_alg».proof.Proof.PixelLayout
import Idealize.ShloMosaic.Lib.ValueIdx
import Idealize.ShloMosaic.Lib.ValueIdxRank6

noncomputable section

namespace Cert.Assembly

open Idealize.ShloMosaic Idealize.ShloMosaic.TcCoe Idealize.SL.Sem Idealize.ShloMosaic.StableHlo Idealize.ShloMosaic.ValueIdx
open Cert.PixelLayout

/-- A memory of the kernel's, and one of the reference's. -/
abbrev KMem : Type := (ℓ : Loc Cert.KernelIdeal.nD Cert.KernelIdeal.τ Cert.KernelIdeal.sig) → Buf (Elt Ideal) ℓ
abbrev RMem : Type := (ℓ : Loc Cert.ReferenceIdeal.nD Cert.ReferenceIdeal.τ Cert.ReferenceIdeal.sig) → Buf (Elt Ideal) ℓ

/-- The reference runs and leaves its arguments unchanged: its run, the results dropped. -/
theorem frame_ri : Cert.frame_ReferenceIdeal := fun m ρ _ =>
  (θ_run Cert.ReferenceIdeal.defs _ _).mono (fun _ h c => (h c).2.2) (Cert.ReferenceIdeal.Value.run (F := Ideal) m ρ)

section Parts

variable
  -- the arrays over the merged pixel axis that the kernel's two results are split from
  (arr2 : KMem → Dev Cert.KernelIdeal.nD → Cert.KernelIdeal.S8x16x16x144.Idx → EReal)
  (arr3 : KMem → Dev Cert.KernelIdeal.nD → Cert.KernelIdeal.S8x16x144.Idx → EReal)
  -- the kernel's run
  (hrun : ∀ (m : KMem) (ρ : Dev Cert.KernelIdeal.nD → PrngReg),
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v4) = shapeCast Cert.KernelIdeal.S8x16x16x12x12 (arr2 m c) Cert.KernelIdeal.Facts₀.shapeCasts_S8x16x16x144_S8x16x16x12x12
      ∧ r.2.mem ((c.tc : Thread Cert.KernelIdeal.nD Cert.KernelIdeal.τ).loc Cert.KernelIdeal.main_v5) = shapeCast Cert.KernelIdeal.S8x16x12x12 (arr3 m c) Cert.KernelIdeal.Facts₀.shapeCasts_S8x16x144_S8x16x12x12
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)))
  -- the kernel's arrays, read at an index
  (harr2 : ∀ (m : KMem) (c : Dev Cert.KernelIdeal.nD) (b : Fin 8) (cc p : Fin 16) (y z : Fin 12),
    arr2 m c (ix4 b cc p (pix y z)) = Cert.Routing.vOut (fun B c' p' => m ((c.tc : Thread Cert.KernelIdeal.nD Cert.KernelIdeal.τ).loc Cert.KernelIdeal.main_arg0) (ix6 b B c' p' y z)) (fun B => m ((c.tc : Thread Cert.KernelIdeal.nD Cert.KernelIdeal.τ).loc Cert.KernelIdeal.main_arg1) (ix4 b B y z)) cc p)
  (harr3 : ∀ (m : KMem) (c : Dev Cert.KernelIdeal.nD) (b : Fin 8) (cc : Fin 16) (y z : Fin 12),
    arr3 m c (ix3 b cc (pix y z)) = Cert.Routing.aOut (fun B c' p' => m ((c.tc : Thread Cert.KernelIdeal.nD Cert.KernelIdeal.τ).loc Cert.KernelIdeal.main_arg0) (ix6 b B c' p' y z)) (fun B => m ((c.tc : Thread Cert.KernelIdeal.nD Cert.KernelIdeal.τ).loc Cert.KernelIdeal.main_arg1) (ix4 b B y z)) cc)
  -- the reference's results, read at an index
  (href_v : ∀ (V0 : Valuation Cert.ReferenceIdeal.τ Cert.ReferenceIdeal.sig (Elt Ideal)) (b : Fin 8) (y z : Fin 12) (c p : Fin 16),
    shapeCast Cert.ReferenceIdeal.S8x16x16x12x12 (Cert.ReferenceIdeal.Value.res_main_v91 (F := Ideal) V0) Cert.ReferenceIdeal.Facts₀.shapeCasts_S8x1x16x16x12x12_S8x16x16x12x12 (ix5 b c p y z)
      = Cert.Routing.vOut (fun B c p => V0 (Proc.devRef .tc Cert.ReferenceIdeal.main_arg0) (ix6 b B c p y z)) (fun B => V0 (Proc.devRef .tc Cert.ReferenceIdeal.main_arg1) (ix4 b B y z)) c p)
  (href_a : ∀ (V0 : Valuation Cert.ReferenceIdeal.τ Cert.ReferenceIdeal.sig (Elt Ideal)) (b : Fin 8) (y z : Fin 12) (c : Fin 16),
    shapeCast Cert.ReferenceIdeal.S8x16x12x12 (Host.sqrt (F := Ideal) (broadcastInDim Cert.ReferenceIdeal.S8x1x16x1x12x12 ![0, 1, 2, 4, 5] Cert.ReferenceIdeal.Facts₀.bcast_S8x1x16x12x12_S8x1x16x1x12x12_0_1_2_4_5 (Host.reduceAdd (F := Ideal) (mulf (F := Ideal) (Cert.ReferenceIdeal.Value.res_main_v91 (F := Ideal) V0) (Cert.ReferenceIdeal.Value.res_main_v91 (F := Ideal) V0)) (constant (F := Ideal) Cert.ReferenceIdeal.S_ .f32 0x00000000#32) Cert.ReferenceIdeal.Facts₀.reducesTo_S8x1x16x16x12x12_S8x1x16x12x12_d3 Cert.ReferenceIdeal.Facts₀.h_S_))) Cert.ReferenceIdeal.Facts₀.shapeCasts_S8x1x16x1x12x12_S8x16x12x12 (ix4 b c y z)
      = Cert.Routing.aOut (fun B c p => V0 (Proc.devRef .tc Cert.ReferenceIdeal.main_arg0) (ix6 b B c p y z)) (fun B => V0 (Proc.devRef .tc Cert.ReferenceIdeal.main_arg1) (ix4 b B y z)) c)

include harr2 href_v in
/-- The first results agree: at `(b, c, p, y, z)` both are the routing's output capsule `c`, component `p`. -/
theorem result_v (m : KMem) (m' : RMem) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) :
    shapeCast Cert.ReferenceIdeal.S8x16x16x12x12 (Cert.ReferenceIdeal.Value.res_main_v91 (F := Ideal) (launchContents m' c)) Cert.ReferenceIdeal.Facts₀.shapeCasts_S8x1x16x16x12x12_S8x16x16x12x12
      = shapeCast Cert.KernelIdeal.S8x16x16x12x12 (arr2 m c) Cert.KernelIdeal.Facts₀.shapeCasts_S8x16x16x144_S8x16x16x12x12 := by
  funext j
  obtain ⟨b, cc, p, y, z, rfl⟩ : ∃ (b : Fin 8) (cc p : Fin 16) (y z : Fin 12), j = ix5 b cc p y z := ⟨_, _, _, _, _, eq_ix5 j⟩
  rw [href_v, split_v, harr2, ← h0, ← h1]

include harr3 href_a in
/-- The second results agree: at `(b, c, y, z)` both are the length of the routing's output capsule `c`. -/
theorem result_a (m : KMem) (m' : RMem) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) :
    shapeCast Cert.ReferenceIdeal.S8x16x12x12 (Host.sqrt (F := Ideal) (broadcastInDim Cert.ReferenceIdeal.S8x1x16x1x12x12 ![0, 1, 2, 4, 5] Cert.ReferenceIdeal.Facts₀.bcast_S8x1x16x12x12_S8x1x16x1x12x12_0_1_2_4_5 (Host.reduceAdd (F := Ideal) (mulf (F := Ideal) (Cert.ReferenceIdeal.Value.res_main_v91 (F := Ideal) (launchContents m' c)) (Cert.ReferenceIdeal.Value.res_main_v91 (F := Ideal) (launchContents m' c))) (constant (F := Ideal) Cert.ReferenceIdeal.S_ .f32 0x00000000#32) Cert.ReferenceIdeal.Facts₀.reducesTo_S8x1x16x16x12x12_S8x1x16x12x12_d3 Cert.ReferenceIdeal.Facts₀.h_S_))) Cert.ReferenceIdeal.Facts₀.shapeCasts_S8x1x16x1x12x12_S8x16x12x12
      = shapeCast Cert.KernelIdeal.S8x16x12x12 (arr3 m c) Cert.KernelIdeal.Facts₀.shapeCasts_S8x16x144_S8x16x12x12 := by
  funext j
  obtain ⟨b, cc, y, z, rfl⟩ : ∃ (b : Fin 8) (cc : Fin 16) (y z : Fin 12), j = ix4 b cc y z := ⟨_, _, _, _, eq_ix4 j⟩
  rw [href_a, split_a, harr3, ← h0, ← h1]

include hrun harr2 harr3 href_v href_a in
/-- From memories that agree on the arguments both programs run, end with equal results and leave the arguments
    unchanged. -/
theorem algebraic : Cert.algebraic_KernelIdeal_ReferenceIdeal := by
  intro m ρ m' ρ' _ hagree
  refine ⟨fun c => shapeCast Cert.KernelIdeal.S8x16x16x12x12 (arr2 m c) Cert.KernelIdeal.Facts₀.shapeCasts_S8x16x16x144_S8x16x16x12x12,
    fun c => shapeCast Cert.KernelIdeal.S8x16x12x12 (arr3 m c) Cert.KernelIdeal.Facts₀.shapeCasts_S8x16x144_S8x16x12x12, hrun m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · exact result_v arr2 harr2 href_v m m' c (hagree c).1 (hagree c).2
  · exact result_a arr3 harr3 href_a m m' c (hagree c).1 (hagree c).2

end Parts

end Cert.Assembly

end
-- ==== Proof.KernelArrays.lean ====
/-
  From the capsule-routing kernel's run to its two result arrays.

  The grid is one axis of extent 8, and block `t` of every window is batch row `t` of its array. So each input
  block read at an index is the corresponding array at that batch row; each result array, after all eight
  write-backs, holds at batch row `b` what the body left at grid point `b`; the two results of the program are
  those arrays with the pixel axis split into 12 × 12; and the arrays the region reads are the program's two
  arguments with the two pixel axes merged (the votes also narrowed to bf16). Nothing here touches the arithmetic
  of the body: `arr2` and `arr3` name the body's outputs point by point.
-/
import proofs.«123957_j17686675325395_1_alg».proof.Proof.Gen.KernelIdeal.Frame
import Idealize.ShloMosaic.Lib.Pipeline.Value
import Idealize.ShloMosaic.Lib.ValueIdx
import Idealize.ShloMosaic.Lib.StableHlo.Run

set_option maxRecDepth 16384

noncomputable section

namespace Cert.KernelArrays

open Idealize.ShloMosaic Idealize.ShloMosaic.TcCoe Idealize.SL.Sem
open Idealize.ShloMosaic.Pipeline (Dat)
open Cert.KernelIdeal Cert.KernelIdeal.Gen
open Idealize.ShloMosaic.ValueIdx (ix3 ix4 ix5)

variable {F : FTy → Type} [FloatOps F]
variable (m : (ℓ : Loc nD τ sig) → Buf (Elt F) ℓ) (ρ : Dev nD → PrngReg)

/-- A batch row as a grid point (the grid is one axis of extent 8). -/
def pt (b : Fin 8) : Fin cfg0.N := b.cast N_0.symm

/-- The first result array: at batch row `b`, what the body left in its first output at grid point `b`. -/
def arr2 (c : Dev nD) : S8x16x16x144.Idx → Elt F .f32 :=
  fun j => (outsAt0 m c (pt (j 0))).1 (ix4 0 (j 1 : Fin 16) (j 2 : Fin 16) (j 3 : Fin 144))

/-- The second result array: at batch row `b`, what the body left in its second output at grid point `b`. -/
def arr3 (c : Dev nD) : S8x16x144.Idx → Elt F .f32 :=
  fun j => (outsAt0 m c (pt (j 0))).2 (ix3 0 (j 1 : Fin 16) (j 2 : Fin 144))

/-! ## The input blocks are batch rows of the arrays the region finds -/

/-- The printed index maps of the two input windows, decided over the grid: block `t` is batch row `t`. -/
theorem idx_facts0 : ∀ t : Fin cfg0.N, win0_0.index t (0 : Fin 5) = t.val ∧ win0_0.index t (1 : Fin 5) = 0
    ∧ win0_0.index t (2 : Fin 5) = 0 ∧ win0_0.index t (3 : Fin 5) = 0 ∧ win0_0.index t (4 : Fin 5) = 0 :=
  (by decide +kernel : ∀ t : Fin grid0.N, _)

theorem idx_facts1 : ∀ t : Fin cfg0.N, win0_1.index t (0 : Fin 3) = t.val ∧ win0_1.index t (1 : Fin 3) = 0
    ∧ win0_1.index t (2 : Fin 3) = 0 :=
  (by decide +kernel : ∀ t : Fin grid0.N, _)

/-- The votes' block at point `t` is batch row `t` of the votes' array. -/
theorem iblk0_apply (c : Dev nD) (t : Fin cfg0.N) (B : Fin 144) (cc p : Fin 16) (x : Fin 144) :
    (iblk m c 0 t : Vec F S1x144x16x16x144 .bf16) (ix5 (0 : Fin 1) B cc p x)
      = (V m c main_v1 : S8x144x16x16x144.Idx → Elt F .bf16) (ix5 (t.cast N_0) B cc p x) := by
  obtain ⟨e0, e1, e2, e3, e4⟩ := idx_facts0 t
  unfold iblk
  rw [View.read_apply]
  show V m c main_v1 _ = V m c main_v1 _
  congr 1
  funext a; apply Fin.ext
  match a with
  | ⟨0, _⟩ => show win0_0.index t (0 : Fin 5) * 1 + 1 * 0 = t.val; omega
  | ⟨1, _⟩ => show win0_0.index t (1 : Fin 5) * 144 + 1 * B.val = B.val; omega
  | ⟨2, _⟩ => show win0_0.index t (2 : Fin 5) * 16 + 1 * cc.val = cc.val; omega
  | ⟨3, _⟩ => show win0_0.index t (3 : Fin 5) * 16 + 1 * p.val = p.val; omega
  | ⟨4, _⟩ => show win0_0.index t (4 : Fin 5) * 144 + 1 * x.val = x.val; omega

/-- The activations' block at point `t` is batch row `t` of the activations' array. -/
theorem iblk1_apply (c : Dev nD) (t : Fin cfg0.N) (B : Fin 144) (x : Fin 144) :
    (iblk m c 1 t : Vec F S1x144x144 .f32) (ix3 (0 : Fin 1) B x)
      = (V m c main_v2 : S8x144x144.Idx → Elt F .f32) (ix3 (t.cast N_0) B x) := by
  obtain ⟨e0, e1, e2⟩ := idx_facts1 t
  unfold iblk
  rw [View.read_apply]
  show V m c main_v2 _ = V m c main_v2 _
  congr 1
  funext a; apply Fin.ext
  match a with
  | ⟨0, _⟩ => show win0_1.index t (0 : Fin 3) * 1 + 1 * 0 = t.val; omega
  | ⟨1, _⟩ => show win0_1.index t (1 : Fin 3) * 144 + 1 * B.val = B.val; omega
  | ⟨2, _⟩ => show win0_1.index t (2 : Fin 3) * 144 + 1 * x.val = x.val; omega

/-- The same at the grid point of batch row `b`. -/
theorem iblk0_pt (c : Dev nD) (b : Fin 8) (B : Fin 144) (cc p : Fin 16) (x : Fin 144) :
    (iblk m c 0 (pt b) : Vec F S1x144x16x16x144 .bf16) (ix5 (0 : Fin 1) B cc p x)
      = (V m c main_v1 : S8x144x16x16x144.Idx → Elt F .bf16) (ix5 b B cc p x) :=
  iblk0_apply m c (pt b) B cc p x

theorem iblk1_pt (c : Dev nD) (b : Fin 8) (B : Fin 144) (x : Fin 144) :
    (iblk m c 1 (pt b) : Vec F S1x144x144 .f32) (ix3 (0 : Fin 1) B x)
      = (V m c main_v2 : S8x144x144.Idx → Elt F .f32) (ix3 b B x) :=
  iblk1_apply m c (pt b) B x

/-! ## The output arrays after the run -/

/-- The printed index maps of the two output windows, decided over the grid: block `t` is batch row `t`. -/
theorem idx_facts2 : ∀ t : Fin cfg0.N, win0_2.index t (0 : Fin 4) = t.val ∧ win0_2.index t (1 : Fin 4) = 0
    ∧ win0_2.index t (2 : Fin 4) = 0 ∧ win0_2.index t (3 : Fin 4) = 0 :=
  (by decide +kernel : ∀ t : Fin grid0.N, _)

theorem idx_facts3 : ∀ t : Fin cfg0.N, win0_3.index t (0 : Fin 3) = t.val ∧ win0_3.index t (1 : Fin 3) = 0
    ∧ win0_3.index t (2 : Fin 3) = 0 :=
  (by decide +kernel : ∀ t : Fin grid0.N, _)

/-- What point `t` writes back to the first result is row `t` of `arr2`. -/
theorem flushed2_eq (c : Dev nD) (t : Fin cfg0.N) :
    (dats m 0 c).flushed 2 t = ((cfg0.win 2).blk t).view.read (Elt F) (arr2 m c) := by
  show (cfg0.win 2).cut (grid0.coords t) ((dats m 0 c).after 2 t) = _
  rw [after0_2]
  funext y
  rw [View.read_apply]
  show (outsAt0 m c t).1 ((cfg0.win 2).xinj (grid0.coords t) y) = arr2 m c (((cfg0.win 2).blk t).view.emb y)
  obtain ⟨e0, e1, e2, e3⟩ := idx_facts2 t
  unfold arr2
  have hy0 : (y 0).val < 1 := (y 0).isLt
  have h0 : pt ((((cfg0.win 2).blk t).view.emb y) 0) = t := by
    apply Fin.ext
    show win0_2.index t (0 : Fin 4) * 1 + 1 * (y 0).val = t.val
    omega
  have h1 : (ix4 0 (((cfg0.win 2).blk t).view.emb y 1 : Fin 16) (((cfg0.win 2).blk t).view.emb y 2 : Fin 16) (((cfg0.win 2).blk t).view.emb y 3 : Fin 144) : S1x16x16x144.Idx)
      = (cfg0.win 2).xinj (grid0.coords t) y := by
    funext a; apply Fin.ext
    match a with
    | ⟨0, _⟩ => show 0 = (y 0).val; omega
    | ⟨1, _⟩ => show win0_2.index t (1 : Fin 4) * 16 + 1 * (y 1).val = (y 1).val; omega
    | ⟨2, _⟩ => show win0_2.index t (2 : Fin 4) * 16 + 1 * (y 2).val = (y 2).val; omega
    | ⟨3, _⟩ => show win0_2.index t (3 : Fin 4) * 144 + 1 * (y 3).val = (y 3).val; omega
  show _ = (outsAt0 m c (pt ((((cfg0.win 2).blk t).view.emb y) 0))).1 (ix4 0 (((cfg0.win 2).blk t).view.emb y 1 : Fin 16) (((cfg0.win 2).blk t).view.emb y 2 : Fin 16) (((cfg0.win 2).blk t).view.emb y 3 : Fin 144))
  rw [h0, h1]

/-- What point `t` writes back to the second result is row `t` of `arr3`. -/
theorem flushed3_eq (c : Dev nD) (t : Fin cfg0.N) :
    (dats m 0 c).flushed 3 t = ((cfg0.win 3).blk t).view.read (Elt F) (arr3 m c) := by
  show (cfg0.win 3).cut (grid0.coords t) ((dats m 0 c).after 3 t) = _
  rw [after0_3]
  funext y
  rw [View.read_apply]
  show (outsAt0 m c t).2 ((cfg0.win 3).xinj (grid0.coords t) y) = arr3 m c (((cfg0.win 3).blk t).view.emb y)
  obtain ⟨e0, e1, e2⟩ := idx_facts3 t
  unfold arr3
  have hy0 : (y 0).val < 1 := (y 0).isLt
  have h0 : pt ((((cfg0.win 3).blk t).view.emb y) 0) = t := by
    apply Fin.ext
    show win0_3.index t (0 : Fin 3) * 1 + 1 * (y 0).val = t.val
    omega
  have h1 : (ix3 0 (((cfg0.win 3).blk t).view.emb y 1 : Fin 16) (((cfg0.win 3).blk t).view.emb y 2 : Fin 144) : S1x16x144.Idx)
      = (cfg0.win 3).xinj (grid0.coords t) y := by
    funext a; apply Fin.ext
    match a with
    | ⟨0, _⟩ => show 0 = (y 0).val; omega
    | ⟨1, _⟩ => show win0_3.index t (1 : Fin 3) * 16 + 1 * (y 1).val = (y 1).val; omega
    | ⟨2, _⟩ => show win0_3.index t (2 : Fin 3) * 144 + 1 * (y 2).val = (y 2).val; omega
  show _ = (outsAt0 m c (pt ((((cfg0.win 3).blk t).view.emb y) 0))).2 (ix3 0 (((cfg0.win 3).blk t).view.emb y 1 : Fin 16) (((cfg0.win 3).blk t).view.emb y 2 : Fin 144))
  rw [h0, h1]

/-- An index of the first result is in point `t`'s block iff each coordinate is in the block's range on its axis. -/
theorem mem_blk2 (t : Fin cfg0.N) (i : S8x16x16x144.Idx) :
    i ∈ ((cfg0.win 2).blk t).view.set ↔ ∀ a : Fin 4, win0_2.index t a * S1x16x16x144.size a ≤ (i a).val ∧ (i a).val < win0_2.index t a * S1x16x16x144.size a + S1x16x16x144.size a := by
  show i ∈ ((View.whole main_v3_0).slice (win0_2.rect t)).set ↔ _
  rw [View.set_slice_whole, Rect.mem_set_unit]
  exact Iff.rfl

theorem mem_blk3 (t : Fin cfg0.N) (i : S8x16x144.Idx) :
    i ∈ ((cfg0.win 3).blk t).view.set ↔ ∀ a : Fin 3, win0_3.index t a * S1x16x144.size a ≤ (i a).val ∧ (i a).val < win0_3.index t a * S1x16x144.size a + S1x16x144.size a := by
  show i ∈ ((View.whole main_v3_1).slice (win0_3.rect t)).set ↔ _
  rw [View.set_slice_whole, Rect.mem_set_unit]
  exact Iff.rfl

/-- The first result after the run: every batch row is written back by its own grid point. -/
theorem final2 (c : Dev nD) : (dats m 0 c).arrAt 2 cfg0.N = arr2 m c :=
  (dats m 0 c).arrAt_eq_of_cover 2 (arr2 m c) (fun t _ => flushed2_eq m c t) fun (i : S8x16x16x144.Idx) => by
    refine ⟨pt (i 0), flush0_2 _, ?_⟩
    rw [mem_blk2]
    obtain ⟨e0, e1, e2, e3⟩ := idx_facts2 (pt (i 0))
    have hp : (pt (i 0)).val = (i 0).val := rfl
    have h1 : (i 1).val < 16 := (i 1).isLt
    have h2 : (i 2).val < 16 := (i 2).isLt
    have h3 : (i 3).val < 144 := (i 3).isLt
    intro a
    match a with
    | ⟨0, _⟩ => show win0_2.index (pt (i 0)) (0 : Fin 4) * 1 ≤ (i 0).val ∧ (i 0).val < win0_2.index (pt (i 0)) (0 : Fin 4) * 1 + 1; omega
    | ⟨1, _⟩ => show win0_2.index (pt (i 0)) (1 : Fin 4) * 16 ≤ (i 1).val ∧ (i 1).val < win0_2.index (pt (i 0)) (1 : Fin 4) * 16 + 16; omega
    | ⟨2, _⟩ => show win0_2.index (pt (i 0)) (2 : Fin 4) * 16 ≤ (i 2).val ∧ (i 2).val < win0_2.index (pt (i 0)) (2 : Fin 4) * 16 + 16; omega
    | ⟨3, _⟩ => show win0_2.index (pt (i 0)) (3 : Fin 4) * 144 ≤ (i 3).val ∧ (i 3).val < win0_2.index (pt (i 0)) (3 : Fin 4) * 144 + 144; omega

/-- The second result after the run. -/
theorem final3 (c : Dev nD) : (dats m 0 c).arrAt 3 cfg0.N = arr3 m c :=
  (dats m 0 c).arrAt_eq_of_cover 3 (arr3 m c) (fun t _ => flushed3_eq m c t) fun (i : S8x16x144.Idx) => by
    refine ⟨pt (i 0), flush0_3 _, ?_⟩
    rw [mem_blk3]
    obtain ⟨e0, e1, e2⟩ := idx_facts3 (pt (i 0))
    have hp : (pt (i 0)).val = (i 0).val := rfl
    have h1 : (i 1).val < 16 := (i 1).isLt
    have h2 : (i 2).val < 144 := (i 2).isLt
    intro a
    match a with
    | ⟨0, _⟩ => show win0_3.index (pt (i 0)) (0 : Fin 3) * 1 ≤ (i 0).val ∧ (i 0).val < win0_3.index (pt (i 0)) (0 : Fin 3) * 1 + 1; omega
    | ⟨1, _⟩ => show win0_3.index (pt (i 0)) (1 : Fin 3) * 16 ≤ (i 1).val ∧ (i 1).val < win0_3.index (pt (i 0)) (1 : Fin 3) * 16 + 16; omega
    | ⟨2, _⟩ => show win0_3.index (pt (i 0)) (2 : Fin 3) * 144 ≤ (i 2).val ∧ (i 2).val < win0_3.index (pt (i 0)) (2 : Fin 3) * 144 + 144; omega

/-! ## The program's results -/

/-- The first result of the program: `arr2` with the pixel axis split. -/
theorem tail_v4 (c : Dev nD) :
    Pipeline.afterTail₀ cfgs (dats m) 0 (V0 m) [hostOps1] c main_v4
      = shapeCast S8x16x16x12x12 (arr2 m c) shapeCasts_S8x16x16x144_S8x16x16x12x12 := by
  unfold Pipeline.afterTail₀
  show StableHlo.after hostOps1 _ (Proc.devRef .tc main_v4) = _
  after_results
  have e := (Pipeline.withArrays_arr spec0 launch0.win.arr_inj c (V0 m c) (fun w => (dats m 0 c).arrAt w (cfgs 0).N) 2).trans (final2 m c)
  funext i
  exact congrArg (fun a => shapeCast S8x16x16x12x12 a shapeCasts_S8x16x16x144_S8x16x16x12x12 i) e

/-- The second result of the program: `arr3` with the pixel axis split. -/
theorem tail_v5 (c : Dev nD) :
    Pipeline.afterTail₀ cfgs (dats m) 0 (V0 m) [hostOps1] c main_v5
      = shapeCast S8x16x12x12 (arr3 m c) shapeCasts_S8x16x144_S8x16x12x12 := by
  unfold Pipeline.afterTail₀
  show StableHlo.after hostOps1 _ (Proc.devRef .tc main_v5) = _
  after_results
  have e := (Pipeline.withArrays_arr spec0 launch0.win.arr_inj c (V0 m c) (fun w => (dats m 0 c).arrAt w (cfgs 0).N) 3).trans (final3 m c)
  funext i
  exact congrArg (fun a => shapeCast S8x16x12x12 a shapeCasts_S8x16x144_S8x16x12x12 i) e

/-- The run, read: every weakly fair execution terminates with the two results at `arr2` and `arr3` reshaped and
    the two arguments unchanged. -/
theorem run : θ_run defs (onTc (τ := τ) (main (F := F))) ⟨m, fun _ => 0, ρ⟩ (fun r => ∀ c : Dev nD,
      r.2.mem ((c.tc : Thread nD τ).loc main_v4) = shapeCast S8x16x16x12x12 (arr2 m c) shapeCasts_S8x16x16x144_S8x16x16x12x12
    ∧ r.2.mem ((c.tc : Thread nD τ).loc main_v5) = shapeCast S8x16x12x12 (arr3 m c) shapeCasts_S8x16x144_S8x16x12x12
    ∧ r.2.mem ((c.tc : Thread nD τ).loc main_arg0) = m ((c.tc : Thread nD τ).loc main_arg0)
    ∧ r.2.mem ((c.tc : Thread nD τ).loc main_arg1) = m ((c.tc : Thread nD τ).loc main_arg1)) :=
  (θ_run defs _ _).mono (fun _ h c =>
    ⟨((h c).2 main_v4 (Pipeline.mem_restRefs_of main_v4 (by decide) (by decide))).trans (tail_v4 m c),
     ((h c).2 main_v5 (Pipeline.mem_restRefs_of main_v5 (by decide) (by decide))).trans (tail_v5 m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (run_main m ρ)

/-! ## The arrays the region finds, as terms of the launch contents -/

/-- The votes' array: the first argument reshaped (the two pixel axes merged) and narrowed to bf16. -/
theorem V_v1 (c : Dev nD) : (V m c main_v1 : S8x144x16x16x144.Idx → Elt F .bf16)
    = truncf .bf16 (shapeCast S8x144x16x16x144 (m ((c : Thread nD τ).loc main_arg0)) shapeCasts_S8x144x16x16x12x12_S8x144x16x16x144) bitsLt_bf16_f32 := by
  show StableHlo.after hostOps0 (fun b => m (c, b)) (Proc.devRef .tc main_v1) = _
  after_results
  rfl

/-- The activations' array: the second argument reshaped (the two pixel axes merged). -/
theorem V_v2 (c : Dev nD) : (V m c main_v2 : S8x144x144.Idx → Elt F .f32)
    = shapeCast S8x144x144 (m ((c : Thread nD τ).loc main_arg1)) shapeCasts_S8x144x12x12_S8x144x144 := by
  show StableHlo.after hostOps0 (fun b => m (c, b)) (Proc.devRef .tc main_v2) = _
  after_results
  rfl

end Cert.KernelArrays

end
-- ==== Proof.RefRouting.lean ====
/-
  The jnp reference of the capsule routing, read at an index, is the routing of Routing.lean.

  The reference's run leaves each result at a composed term of the two argument arrays, built from thirteen
  named intermediate arrays. Those are three repetitions of the same six array operations: the exponentials of
  the logits shifted by their maximum over the output capsules, their quotient by the sum over the output
  capsules, the sum over the input capsules of coefficient times vote, the squared norm over the pose
  components, the squashing, and the logits plus the agreement summed over the pose components. Each operation
  is stated once as a function of arrays (`expStage` … `stepStage`), each named intermediate array is one of them
  applied to earlier ones by unfolding, and each is read once at an index `(b, B, c, 0, y, z)` or
  `(b, 0, c, p, y, z)`: a broadcast reads its operand with `0` on the stretched unit axes, a reduction over one
  axis is the sum (from `0`) or the maximum (from `-∞`, which a further maximum with `-∞` does not change) over
  that axis's coordinate. Chained over the three rounds at a fixed batch element `b` and pixel `(y, z)`, with
  `U B c p` the first argument at `(b, B, c, p, y, z)` and `A B` the second at `(b, B, y, z)`, the last squashed
  votes are `vOut U A` and the square root of their squared norm is `aOut U A`; the two results drop the unit
  axes, which does not move an element's row-major position.
-/
import proofs.«123957_j17686675325395_1_alg».proof.Proof.Gen.ReferenceIdeal.Run
import proofs.«123957_j17686675325395_1_alg».proof.Proof.Routing
import Idealize.ShloMosaic.Lib.ValueIdx
import Idealize.ShloMosaic.Lib.ValueIdxRank6
import Idealize.ShloMosaic.Lib.IdealHost
import Idealize.ShloMosaic.PureOps.Ideal.Laws
import Idealize.ShloMosaic.Lib.Pipeline.Value

noncomputable section

namespace Cert.RefRouting

open Cert.ReferenceIdeal Cert.ReferenceIdeal.Gen Cert.ReferenceIdeal.Value Idealize.ShloMosaic Idealize.ShloMosaic.ValueIdx
open Cert.Routing
open scoped BigOperators

/-! ## The stages of one routing round, as functions of arrays -/

/-- The initial logits: the activations, scaled, repeated over the output capsules. -/
def logitStage (A4 : FVec Ideal S8x144x12x12 .f32) : FVec Ideal S8x144x16x1x12x12 .f32 :=
  broadcastInDim S8x144x16x1x12x12 ![0, 1, 2, 3, 4, 5] bcast_S8x144x1x1x12x12_S8x144x16x1x12x12_0_1_2_3_4_5 (mulf (broadcastInDim S8x144x1x1x12x12 ![0, 1, 4, 5] bcast_S8x144x12x12_S8x144x1x1x12x12_0_1_4_5 A4) (broadcastInDim S8x144x1x1x12x12 ![] bcast_S_S8x144x1x1x12x12 (constant S_ .f32 0x3D800000#32)))

/-- The exponentials of the logits shifted by their maximum over the output capsules. -/
def expStage (R : FVec Ideal S8x144x16x1x12x12 .f32) : FVec Ideal S8x144x16x1x12x12 .f32 :=
  Host.exp (subf R (broadcastInDim S8x144x16x1x12x12 ![0, 1, 2, 3, 4, 5] bcast_S8x144x1x1x12x12_S8x144x16x1x12x12_0_1_2_3_4_5 (broadcastInDim S8x144x1x1x12x12 ![0, 1, 3, 4, 5] bcast_S8x144x1x12x12_S8x144x1x1x12x12_0_1_3_4_5 (maximumf (broadcastInDim S8x144x1x12x12 ![] bcast_S_S8x144x1x12x12 (constant S_ .f32 0xFF800000#32)) (Host.reduce FloatOps.maximumf R (constant S_ .f32 0xFF800000#32) reducesTo_S8x144x16x1x12x12_S8x144x1x12x12_d2 h_S_)))))

/-- The exponentials divided by their sum over the output capsules. -/
def coupleStage (E : FVec Ideal S8x144x16x1x12x12 .f32) : FVec Ideal S8x144x16x1x12x12 .f32 :=
  Host.divf E (broadcastInDim S8x144x16x1x12x12 ![0, 1, 2, 3, 4, 5] bcast_S8x144x1x1x12x12_S8x144x16x1x12x12_0_1_2_3_4_5 (broadcastInDim S8x144x1x1x12x12 ![0, 1, 3, 4, 5] bcast_S8x144x1x12x12_S8x144x1x1x12x12_0_1_3_4_5 (Host.reduceAdd E (constant S_ .f32 0x00000000#32) reducesTo_S8x144x16x1x12x12_S8x144x1x12x12_d2 h_S_)))

/-- The weighted votes: the sum over the input capsules of coefficient times vote. -/
def voteStage (E : FVec Ideal S8x144x16x1x12x12 .f32) (U6 : FVec Ideal S8x144x16x16x12x12 .f32) : FVec Ideal S8x1x16x16x12x12 .f32 :=
  broadcastInDim S8x1x16x16x12x12 ![0, 2, 3, 4, 5] bcast_S8x16x16x12x12_S8x1x16x16x12x12_0_2_3_4_5 (Host.reduceAdd (mulf (broadcastInDim S8x144x16x16x12x12 ![0, 1, 2, 3, 4, 5] bcast_S8x144x16x1x12x12_S8x144x16x16x12x12_0_1_2_3_4_5 (coupleStage E)) U6) (constant S_ .f32 0x00000000#32) reducesTo_S8x144x16x16x12x12_S8x16x16x12x12_d1 h_S_)

/-- The squared norms of the pose vectors. -/
def norm2Stage (S : FVec Ideal S8x1x16x16x12x12 .f32) : FVec Ideal S8x1x16x1x12x12 .f32 :=
  broadcastInDim S8x1x16x1x12x12 ![0, 1, 2, 4, 5] bcast_S8x1x16x12x12_S8x1x16x1x12x12_0_1_2_4_5 (Host.reduceAdd (mulf S S) (constant S_ .f32 0x00000000#32) reducesTo_S8x1x16x16x12x12_S8x1x16x12x12_d3 h_S_)

/-- The squashing of pose vectors `S` whose squared norms are `Q`. -/
def squashStage (S : FVec Ideal S8x1x16x16x12x12 .f32) (Q : FVec Ideal S8x1x16x1x12x12 .f32) : FVec Ideal S8x1x16x16x12x12 .f32 :=
  Host.divf (mulf (broadcastInDim S8x1x16x16x12x12 ![0, 1, 2, 3, 4, 5] bcast_S8x1x16x1x12x12_S8x1x16x16x12x12_0_1_2_3_4_5 (Host.divf Q (addf (broadcastInDim S8x1x16x1x12x12 ![] bcast_S_S8x1x16x1x12x12 (constant S_ .f32 0x3F800000#32)) Q))) S) (broadcastInDim S8x1x16x16x12x12 ![0, 1, 2, 3, 4, 5] bcast_S8x1x16x1x12x12_S8x1x16x16x12x12_0_1_2_3_4_5 (Host.sqrt Q))

/-- The logits plus the agreement of the votes with the output capsules `W`. -/
def stepStage (R : FVec Ideal S8x144x16x1x12x12 .f32) (U6 : FVec Ideal S8x144x16x16x12x12 .f32) (W : FVec Ideal S8x1x16x16x12x12 .f32) : FVec Ideal S8x144x16x1x12x12 .f32 :=
  addf R (broadcastInDim S8x144x16x1x12x12 ![0, 1, 2, 4, 5] bcast_S8x144x16x12x12_S8x144x16x1x12x12_0_1_2_4_5 (Host.reduceAdd (mulf U6 (broadcastInDim S8x144x16x16x12x12 ![0, 1, 2, 3, 4, 5] bcast_S8x1x16x16x12x12_S8x144x16x16x12x12_0_1_2_3_4_5 W)) (constant S_ .f32 0x00000000#32) reducesTo_S8x144x16x16x12x12_S8x144x16x12x12_d3 h_S_))

/-! ## The program's named stages are these -/

section Named
variable (V0 : Valuation τ sig (Elt Ideal))

theorem v3_eq : res_main_v3 (F := Ideal) V0 = logitStage (V0 (Proc.devRef .tc main_arg1)) := rfl
theorem v10_eq : res_main_v10 (F := Ideal) V0 = expStage (res_main_v3 V0) := rfl
theorem v18_eq : res_main_v18 (F := Ideal) V0 = voteStage (res_main_v10 V0) (V0 (Proc.devRef .tc main_arg0)) := rfl
theorem v21_eq : res_main_v21 (F := Ideal) V0 = norm2Stage (res_main_v18 V0) := rfl
theorem v34_eq : res_main_v34 (F := Ideal) V0
    = stepStage (res_main_v3 V0) (V0 (Proc.devRef .tc main_arg0)) (squashStage (res_main_v18 V0) (res_main_v21 V0)) := rfl
theorem v41_eq : res_main_v41 (F := Ideal) V0 = expStage (res_main_v34 V0) := rfl
theorem v49_eq : res_main_v49 (F := Ideal) V0 = voteStage (res_main_v41 V0) (V0 (Proc.devRef .tc main_arg0)) := rfl
theorem v52_eq : res_main_v52 (F := Ideal) V0 = norm2Stage (res_main_v49 V0) := rfl
theorem v65_eq : res_main_v65 (F := Ideal) V0
    = stepStage (res_main_v34 V0) (V0 (Proc.devRef .tc main_arg0)) (squashStage (res_main_v49 V0) (res_main_v52 V0)) := rfl
theorem v72_eq : res_main_v72 (F := Ideal) V0 = expStage (res_main_v65 V0) := rfl
theorem v80_eq : res_main_v80 (F := Ideal) V0 = voteStage (res_main_v72 V0) (V0 (Proc.devRef .tc main_arg0)) := rfl
theorem v83_eq : res_main_v83 (F := Ideal) V0 = norm2Stage (res_main_v80 V0) := rfl
theorem v91_eq : res_main_v91 (F := Ideal) V0 = squashStage (res_main_v80 V0) (res_main_v83 V0) := rfl

end Named

/-! ## Reduced indices with the coordinate inserted -/

theorem redC : S8x144x16x1x12x12.Reduces [2] S8x144x1x12x12 := by decide
theorem redB : S8x144x16x16x12x12.Reduces [1] S8x16x16x12x12 := by decide
theorem redP1 : S8x1x16x16x12x12.Reduces [3] S8x1x16x12x12 := by decide
theorem redP : S8x144x16x16x12x12.Reduces [3] S8x144x16x12x12 := by decide

theorem lift_redC (b : Fin 8) (B : Fin 144) (y z : Fin 12) (k : Fin 16) :
    redC.lift (ix5 b B 0 y z) k = ix6 b B k 0 y z := by
  funext a; fin_cases a <;> rfl
theorem lift_redB (b : Fin 8) (c p : Fin 16) (y z : Fin 12) (k : Fin 144) :
    redB.lift (ix5 b c p y z) k = ix6 b k c p y z := by
  funext a; fin_cases a <;> rfl
theorem lift_redP1 (b : Fin 8) (c : Fin 16) (y z : Fin 12) (k : Fin 16) :
    redP1.lift (ix5 b 0 c y z) k = ix6 b 0 c k y z := by
  funext a; fin_cases a <;> rfl
theorem lift_redP (b : Fin 8) (B : Fin 144) (c : Fin 16) (y z : Fin 12) (k : Fin 16) :
    redP.lift (ix5 b B c y z) k = ix6 b B c k y z := by
  funext a; fin_cases a <;> rfl

/-- A maximum that starts at `-∞` absorbs another `-∞`. -/
theorem max_fold_max {ι : Type} (s : Finset ι) (w : EReal) (f : ι → EReal) : max w (s.fold max w f) = s.fold max w f :=
  max_eq_right ((Finset.le_fold_max w).mpr (Or.inl le_rfl))

/-! ## The stages read at an index -/

section Apply
variable (b : Fin 8) (y z : Fin 12)

theorem logitStage_apply (A4 : FVec Ideal S8x144x12x12 .f32) (B : Fin 144) (c : Fin 16) :
    logitStage A4 (ix6 b B c 0 y z) = logit0 (fun B => A4 (ix4 b B y z)) B c := by
  unfold logitStage logit0
  rw [broadcastInDim_apply _ _ _ _ (ix6 b B 0 0 y z) (by intro a; fin_cases a <;> rfl)]
  rw [mulf_apply]
  rw [broadcastInDim_apply _ _ _ _ (ix4 b B y z) (by intro a; fin_cases a <;> rfl)]
  rw [broadcastInDim_scalar_apply]
  rfl

theorem expStage_apply (R : FVec Ideal S8x144x16x1x12x12 .f32) (B : Fin 144) (c : Fin 16) :
    expStage R (ix6 b B c 0 y z) = expo (fun c' => R (ix6 b B c' 0 y z)) c := by
  unfold expStage expo rowMax
  show Ideal.exp (R (ix6 b B c 0 y z) - _) = _
  rw [broadcastInDim_apply _ _ _ _ (ix6 b B 0 0 y z) (by intro a; fin_cases a <;> rfl)]
  rw [broadcastInDim_apply _ _ _ _ (ix5 b B 0 y z) (by intro a; fin_cases a <;> rfl)]
  rw [maximumf_apply, broadcastInDim_scalar_apply]
  rw [Host.reduce_eq_fold_single FloatOps.maximumf R _ _ redC h_S_]
  have e : (R ∘ redC.lift (ix5 b B 0 y z)) = fun c' : Fin 16 => R (ix6 b B c' 0 y z) :=
    funext fun k => congrArg R (lift_redC b B y z k)
  rw [e]
  exact congrArg (fun m => Ideal.exp (R (ix6 b B c 0 y z) - m)) (max_fold_max _ _ _)

theorem coupleStage_apply (E : FVec Ideal S8x144x16x1x12x12 .f32) (B : Fin 144) (c : Fin 16) :
    coupleStage E (ix6 b B c 0 y z) = Ideal.div (E (ix6 b B c 0 y z)) (∑ c' : Fin 16, E (ix6 b B c' 0 y z)) := by
  unfold coupleStage
  rw [hostDivf_apply]
  rw [broadcastInDim_apply _ _ _ _ (ix6 b B 0 0 y z) (by intro a; fin_cases a <;> rfl)]
  rw [broadcastInDim_apply _ _ _ _ (ix5 b B 0 y z) (by intro a; fin_cases a <;> rfl)]
  rw [hostReduceAdd_apply]
  refine congrArg (Ideal.div _) ?_
  refine (Ideal.hostReduceAdd_single _ redC E _ _).trans ?_
  rw [constant_apply, Ideal.ofBits_zero_f32, zero_add]
  exact Finset.sum_congr rfl fun k _ => congrArg E (lift_redC b B y z k)

theorem voteStage_apply (E : FVec Ideal S8x144x16x1x12x12 .f32) (U6 : FVec Ideal S8x144x16x16x12x12 .f32) (c p : Fin 16) :
    voteStage E U6 (ix6 b 0 c p y z) = ∑ B : Fin 144, coupleStage E (ix6 b B c 0 y z) * U6 (ix6 b B c p y z) := by
  unfold voteStage
  rw [broadcastInDim_apply _ _ _ _ (ix5 b c p y z) (by intro a; fin_cases a <;> rfl)]
  rw [hostReduceAdd_apply]
  refine (Ideal.hostReduceAdd_single _ redB _ _ _).trans ?_
  rw [constant_apply, Ideal.ofBits_zero_f32, zero_add]
  refine Finset.sum_congr rfl fun (k : Fin 144) _ => ?_
  rw [lift_redB, mulf_apply]
  rw [broadcastInDim_apply _ _ _ _ (ix6 b k c 0 y z) (by intro a; fin_cases a <;> rfl)]

theorem norm2Stage_apply (S : FVec Ideal S8x1x16x16x12x12 .f32) (c : Fin 16) :
    norm2Stage S (ix6 b 0 c 0 y z) = norm2 (fun p => S (ix6 b 0 c p y z)) := by
  unfold norm2Stage norm2
  rw [broadcastInDim_apply _ _ _ _ (ix5 b 0 c y z) (by intro a; fin_cases a <;> rfl)]
  rw [hostReduceAdd_apply]
  refine (Ideal.hostReduceAdd_single _ redP1 _ _ _).trans ?_
  rw [constant_apply, Ideal.ofBits_zero_f32, zero_add]
  refine Finset.sum_congr rfl fun (k : Fin 16) _ => ?_
  rw [lift_redP1, mulf_apply]

theorem squashStage_apply (S : FVec Ideal S8x1x16x16x12x12 .f32) (Q : FVec Ideal S8x1x16x1x12x12 .f32) (c p : Fin 16) :
    squashStage S Q (ix6 b 0 c p y z)
      = Ideal.div (Ideal.div (Q (ix6 b 0 c 0 y z)) (wOne + Q (ix6 b 0 c 0 y z)) * S (ix6 b 0 c p y z))
          (Ideal.sqrt (Q (ix6 b 0 c 0 y z))) := by
  unfold squashStage
  rw [hostDivf_apply, mulf_apply]
  rw [broadcastInDim_apply _ _ _ _ (ix6 b 0 c 0 y z) (by intro a; fin_cases a <;> rfl)]
  rw [broadcastInDim_apply _ _ _ _ (ix6 b 0 c 0 y z) (by intro a; fin_cases a <;> rfl)]
  rw [hostDivf_apply, addf_apply, broadcastInDim_scalar_apply]
  rfl

theorem stepStage_apply (R : FVec Ideal S8x144x16x1x12x12 .f32) (U6 : FVec Ideal S8x144x16x16x12x12 .f32)
    (W : FVec Ideal S8x1x16x16x12x12 .f32) (B : Fin 144) (c : Fin 16) :
    stepStage R U6 W (ix6 b B c 0 y z)
      = R (ix6 b B c 0 y z) + ∑ p : Fin 16, U6 (ix6 b B c p y z) * W (ix6 b 0 c p y z) := by
  unfold stepStage
  rw [addf_apply]
  rw [broadcastInDim_apply _ _ _ _ (ix5 b B c y z) (by intro a; fin_cases a <;> rfl)]
  rw [hostReduceAdd_apply]
  refine congrArg (R (ix6 b B c 0 y z) + ·) ?_
  refine (Ideal.hostReduceAdd_single _ redP _ _ _).trans ?_
  rw [constant_apply, Ideal.ofBits_zero_f32, zero_add]
  refine Finset.sum_congr rfl fun (k : Fin 16) _ => ?_
  rw [lift_redP, mulf_apply]
  rw [broadcastInDim_apply _ _ _ _ (ix6 b 0 c k y z) (by intro a; fin_cases a <;> rfl)]

end Apply

/-! ## One round at a pixel -/

section Round
variable (b : Fin 8) (y z : Fin 12) (U6 : FVec Ideal S8x144x16x16x12x12 .f32)
  (R : FVec Ideal S8x144x16x1x12x12 .f32) (r : Fin 144 → Fin 16 → EReal)
  (hR : ∀ B c, R (ix6 b B c 0 y z) = r B c)
include hR

/-- The coupling coefficients of logits that read `r` at the pixel are `couple r`. -/
theorem couple_point (B : Fin 144) (c : Fin 16) :
    coupleStage (expStage R) (ix6 b B c 0 y z) = couple (r B) c := by
  have e : ∀ c', expStage R (ix6 b B c' 0 y z) = expo (r B) c' := fun c' => by
    rw [expStage_apply]; exact congrArg (fun f => expo f c') (funext fun c'' => hR B c'')
  rw [coupleStage_apply, e c]
  exact congrArg (Ideal.div _) (Finset.sum_congr rfl fun c' _ => e c')

/-- Their weighted votes are `vote r`. -/
theorem vote_point (c p : Fin 16) :
    voteStage (expStage R) U6 (ix6 b 0 c p y z) = vote r (fun B c p => U6 (ix6 b B c p y z)) c p := by
  rw [voteStage_apply]
  exact Finset.sum_congr rfl fun B _ => by rw [couple_point b y z R r hR]

/-- The squashed votes are `outv r`. -/
theorem outv_point (c p : Fin 16) :
    squashStage (voteStage (expStage R) U6) (norm2Stage (voteStage (expStage R) U6)) (ix6 b 0 c p y z)
      = outv r (fun B c p => U6 (ix6 b B c p y z)) c p := by
  have e : (fun p' => voteStage (expStage R) U6 (ix6 b 0 c p' y z)) = vote r (fun B c p => U6 (ix6 b B c p y z)) c :=
    funext fun p' => vote_point b y z U6 R r hR c p'
  rw [squashStage_apply, norm2Stage_apply, e, vote_point b y z U6 R r hR]
  rfl

/-- The next logits are `step r`. -/
theorem step_point (B : Fin 144) (c : Fin 16) :
    stepStage R U6 (squashStage (voteStage (expStage R) U6) (norm2Stage (voteStage (expStage R) U6))) (ix6 b B c 0 y z)
      = step r (fun B c p => U6 (ix6 b B c p y z)) B c := by
  rw [stepStage_apply, hR]
  exact congrArg (r B c + ·) (Finset.sum_congr rfl fun p _ => by rw [outv_point b y z U6 R r hR])

end Round

/-! ## The three rounds, and the results -/

section Results
variable (V0 : Valuation τ sig (Elt Ideal)) (b : Fin 8) (y z : Fin 12)

/-- The last round's output capsules at a pixel. -/
theorem v91_point (c p : Fin 16) :
    res_main_v91 (F := Ideal) V0 (ix6 b 0 c p y z)
      = vOut (fun B c p => V0 (Proc.devRef .tc main_arg0) (ix6 b B c p y z)) (fun B => V0 (Proc.devRef .tc main_arg1) (ix4 b B y z)) c p := by
  have h3 : ∀ B c, res_main_v3 (F := Ideal) V0 (ix6 b B c 0 y z)
      = logit0 (fun B => V0 (Proc.devRef .tc main_arg1) (ix4 b B y z)) B c := fun B c => by
    rw [v3_eq]; exact logitStage_apply b y z _ B c
  have h34 : ∀ B c, res_main_v34 (F := Ideal) V0 (ix6 b B c 0 y z)
      = step (logit0 (fun B => V0 (Proc.devRef .tc main_arg1) (ix4 b B y z)))
          (fun B c p => V0 (Proc.devRef .tc main_arg0) (ix6 b B c p y z)) B c := fun B c => by
    rw [v34_eq, v21_eq, v18_eq, v10_eq]; exact step_point b y z _ _ _ h3 B c
  have h65 : ∀ B c, res_main_v65 (F := Ideal) V0 (ix6 b B c 0 y z)
      = step (step (logit0 (fun B => V0 (Proc.devRef .tc main_arg1) (ix4 b B y z)))
          (fun B c p => V0 (Proc.devRef .tc main_arg0) (ix6 b B c p y z)))
          (fun B c p => V0 (Proc.devRef .tc main_arg0) (ix6 b B c p y z)) B c := fun B c => by
    rw [v65_eq, v52_eq, v49_eq, v41_eq]; exact step_point b y z _ _ _ h34 B c
  rw [v91_eq, v83_eq, v80_eq, v72_eq]
  exact outv_point b y z _ _ _ h65 c p

/-- The reference's first result, read at an index, is the routing's output capsule. -/
theorem ref_v (c p : Fin 16) :
    shapeCast S8x16x16x12x12 (res_main_v91 (F := Ideal) V0) shapeCasts_S8x1x16x16x12x12_S8x16x16x12x12 (ix5 b c p y z)
      = vOut (fun B c p => V0 (Proc.devRef .tc main_arg0) (ix6 b B c p y z)) (fun B => V0 (Proc.devRef .tc main_arg1) (ix4 b B y z)) c p := by
  have hk : (S8x1x16x16x12x12.rowMajor (ix6 b 0 c p y z)).val = (S8x16x16x12x12.rowMajor (ix5 b c p y z)).val := by
    rw [Shape.rowMajor_val_six, Shape.rowMajor_val_five]
    show ((((b.val * 1 + 0) * 16 + c.val) * 16 + p.val) * 12 + y.val) * 12 + z.val
      = (((b.val * 16 + c.val) * 16 + p.val) * 12 + y.val) * 12 + z.val
    omega
  rw [shapeCast_apply _ _ _ _ hk]
  exact v91_point V0 b y z c p

/-- The reference's second result, read at an index, is the output capsule's length. -/
theorem ref_a (c : Fin 16) :
    shapeCast S8x16x12x12 (Host.sqrt (F := Ideal) (broadcastInDim S8x1x16x1x12x12 ![0, 1, 2, 4, 5] bcast_S8x1x16x12x12_S8x1x16x1x12x12_0_1_2_4_5 (Host.reduceAdd (F := Ideal) (mulf (F := Ideal) (res_main_v91 (F := Ideal) V0) (res_main_v91 (F := Ideal) V0)) (constant (F := Ideal) S_ .f32 0x00000000#32) reducesTo_S8x1x16x16x12x12_S8x1x16x12x12_d3 h_S_))) shapeCasts_S8x1x16x1x12x12_S8x16x12x12 (ix4 b c y z)
      = aOut (fun B c p => V0 (Proc.devRef .tc main_arg0) (ix6 b B c p y z)) (fun B => V0 (Proc.devRef .tc main_arg1) (ix4 b B y z)) c := by
  have hk : (S8x1x16x1x12x12.rowMajor (ix6 b 0 c 0 y z)).val = (S8x16x12x12.rowMajor (ix4 b c y z)).val := by
    rw [Shape.rowMajor_val_six, Shape.rowMajor_val_four]
    show ((((b.val * 1 + 0) * 16 + c.val) * 1 + 0) * 12 + y.val) * 12 + z.val
      = ((b.val * 16 + c.val) * 12 + y.val) * 12 + z.val
    omega
  rw [shapeCast_apply _ _ _ _ hk]
  show Ideal.sqrt (norm2Stage (res_main_v91 (F := Ideal) V0) (ix6 b 0 c 0 y z)) = _
  rw [norm2Stage_apply]
  unfold aOut norm2
  exact congrArg Ideal.sqrt (Finset.sum_congr rfl fun p _ => by beta_reduce; rw [v91_point V0 b y z c p])

end Results

end Cert.RefRouting
end
-- ==== Proof.BodyTrips.lean ====
/-
  One trip of each of the kernel body's five counted loops, as a statement about what the written scratch buffer
  reads afterwards.

  The body keeps three scratch arrays: the routing logits `r` and the coupling coefficients `c` (both
  `[144, 16, 144]`: input capsule, output capsule, pixel) and the vote accumulator `s` (`[16, 16, 144]`: output
  capsule, pose component, pixel). The input capsules are walked in 18 chunks of 8. A trip of a VOTE loop loads chunk
  `k` of the votes and of the coefficients, and stores the whole accumulator back with the chunk's contribution added;
  a trip of an UPDATE loop loads chunk `k` of the votes and of the logits and stores those 8 rows of the logits back
  with the agreement added. Each trip's single store is spelt out here (its rectangle and its payload over what the
  trip loaded), and from it what the buffer reads after one more trip.
-/
import proofs.«123957_j17686675325395_1_alg».proof.Proof.Gen.KernelIdeal.Loops
import Idealize.ShloMosaic.Lib.Pipeline.Value
import Idealize.ShloMosaic.Lib.WritesUnit
import Idealize.ShloMosaic.Lib.ValueIdx

set_option maxRecDepth 16384

noncomputable section

namespace Cert.KernelIdeal.Steps

open Cert.KernelIdeal Cert.KernelIdeal.Gen
open Idealize.ShloMosaic Idealize.ShloMosaic.TcCoe Idealize.ShloMosaic.ValueIdx
open Idealize.SL Idealize.SL.Sem

variable {F : FTy → Type} [FloatOps F]

variable (𝒱 : Variants) (c : Dev nD) (bd : Option 𝒱.V) (i : grid0.Coords) (arg1 : Memref sig .tc .vmem S1x144x16x16x144 .bf16) (harg1 : arg1.IsWhole) (arg2 : Memref sig .tc .vmem S1x144x144 .f32) (harg2 : arg2.IsWhole) (arg3 : Memref sig .tc .vmem S1x16x16x144 .f32) (harg3 : arg3.IsWhole) (arg4 : Memref sig .tc .vmem S1x16x144 .f32) (harg4 : arg4.IsWhole) (arg5 : Memref sig .tc .vmem S144x16x144 .f32) (harg5 : arg5.IsWhole) (arg6 : Memref sig .tc .vmem S144x16x144 .f32) (harg6 : arg6.IsWhole) (arg7 : Memref sig .tc .vmem S16x16x144 .f32) (harg7 : arg7.IsWhole)

/-! ## The one store of each trip -/

/-- A trip of vote loop 1: one store of the whole accumulator. -/
theorem tripL1_eq (X1 : BufTy.Contents (Elt F) arg1.view.ty) (X6 : BufTy.Contents (Elt F) arg6.view.ty) (k : Fin k0_t1_loop.trips) (f : BufTy.Contents (Elt F) arg7.view.ty) :
    tripL_k0_t1 (F := F) 𝒱 c bd i arg1 harg1 arg2 harg2 arg3 harg3 arg4 harg4 arg5 harg5 arg6 harg6 arg7 harg7 X1 X6 k f
      = [⟨Rect.unit (s := S16x16x144) ![0, 0, 0] S16x16x144.size inb_S16x16x144_S16x16x144_0_0_0,
          k0_pay7 (View.readAt (Elt F) arg1.view (Rect.unit (s := S1x144x16x16x144) (k0_off1 k) S1x8x16x16x144.size (k0_off1_inb k)).toLoadRect X1)
            (View.readAt (Elt F) arg6.view (Rect.unit (s := S144x16x144) (k0_off2 k) S8x16x144.size (k0_off2_inb k)).toLoadRect X6)
            (View.readAt (Elt F) arg7.view (Rect.unit (s := S16x16x144) ![0, 0, 0] S16x16x144.size inb_S16x16x144_S16x16x144_0_0_0).toLoadRect f)⟩] := by
  unfold tripL_k0_t1 trip_k0_t1
  rfl

/-- A trip of update loop 2: one store of rows `[8k, 8k+8)` of the logits. -/
theorem tripL2_eq (v28 : Vec F S16x16x144 .f32) (X1 : BufTy.Contents (Elt F) arg1.view.ty) (k : Fin k0_t2_loop.trips) (f : BufTy.Contents (Elt F) arg5.view.ty) :
    tripL_k0_t2 (F := F) 𝒱 c bd i arg1 harg1 arg2 harg2 arg3 harg3 arg4 harg4 arg5 harg5 arg6 harg6 arg7 harg7 v28 X1 k f
      = [⟨Rect.unit (s := S144x16x144) (k0_off4 k) S8x16x144.size (k0_off4_inb k),
          k0_pay8 v28 (View.readAt (Elt F) arg1.view (Rect.unit (s := S1x144x16x16x144) (k0_off3 k) S1x8x16x16x144.size (k0_off3_inb k)).toLoadRect X1)
            (View.readAt (Elt F) arg5.view (Rect.unit (s := S144x16x144) (k0_off4 k) S8x16x144.size (k0_off4_inb k)).toLoadRect f)⟩] := by
  unfold tripL_k0_t2 trip_k0_t2
  rfl

/-- A trip of vote loop 3: one store of the whole accumulator. -/
theorem tripL3_eq (v28 : Vec F S16x16x144 .f32) (X1 : BufTy.Contents (Elt F) arg1.view.ty) (X6 : BufTy.Contents (Elt F) arg6.view.ty) (k : Fin k0_t3_loop.trips) (f : BufTy.Contents (Elt F) arg7.view.ty) :
    tripL_k0_t3 (F := F) 𝒱 c bd i arg1 harg1 arg2 harg2 arg3 harg3 arg4 harg4 arg5 harg5 arg6 harg6 arg7 harg7 v28 X1 X6 k f
      = [⟨Rect.unit (s := S16x16x144) ![0, 0, 0] S16x16x144.size inb_S16x16x144_S16x16x144_0_0_0,
          k0_pay11 (View.readAt (Elt F) arg1.view (Rect.unit (s := S1x144x16x16x144) (k0_off5 k) S1x8x16x16x144.size (k0_off5_inb k)).toLoadRect X1)
            (View.readAt (Elt F) arg6.view (Rect.unit (s := S144x16x144) (k0_off6 k) S8x16x144.size (k0_off6_inb k)).toLoadRect X6)
            (View.readAt (Elt F) arg7.view (Rect.unit (s := S16x16x144) ![0, 0, 0] S16x16x144.size inb_S16x16x144_S16x16x144_0_0_0).toLoadRect f)⟩] := by
  unfold tripL_k0_t3 trip_k0_t3
  rfl

/-- A trip of update loop 4: one store of rows `[8k, 8k+8)` of the logits. -/
theorem tripL4_eq (v59 : Vec F S16x16x144 .f32) (X1 : BufTy.Contents (Elt F) arg1.view.ty) (k : Fin k0_t4_loop.trips) (f : BufTy.Contents (Elt F) arg5.view.ty) :
    tripL_k0_t4 (F := F) 𝒱 c bd i arg1 harg1 arg2 harg2 arg3 harg3 arg4 harg4 arg5 harg5 arg6 harg6 arg7 harg7 v59 X1 k f
      = [⟨Rect.unit (s := S144x16x144) (k0_off8 k) S8x16x144.size (k0_off8_inb k),
          k0_pay12 v59 (View.readAt (Elt F) arg1.view (Rect.unit (s := S1x144x16x16x144) (k0_off7 k) S1x8x16x16x144.size (k0_off7_inb k)).toLoadRect X1)
            (View.readAt (Elt F) arg5.view (Rect.unit (s := S144x16x144) (k0_off8 k) S8x16x144.size (k0_off8_inb k)).toLoadRect f)⟩] := by
  unfold tripL_k0_t4 trip_k0_t4
  rfl

/-- A trip of vote loop 5: one store of the whole accumulator. -/
theorem tripL5_eq (v59 : Vec F S16x16x144 .f32) (X1 : BufTy.Contents (Elt F) arg1.view.ty) (X6 : BufTy.Contents (Elt F) arg6.view.ty) (k : Fin k0_t5_loop.trips) (f : BufTy.Contents (Elt F) arg7.view.ty) :
    tripL_k0_t5 (F := F) 𝒱 c bd i arg1 harg1 arg2 harg2 arg3 harg3 arg4 harg4 arg5 harg5 arg6 harg6 arg7 harg7 v59 X1 X6 k f
      = [⟨Rect.unit (s := S16x16x144) ![0, 0, 0] S16x16x144.size inb_S16x16x144_S16x16x144_0_0_0,
          k0_pay15 (View.readAt (Elt F) arg1.view (Rect.unit (s := S1x144x16x16x144) (k0_off9 k) S1x8x16x16x144.size (k0_off9_inb k)).toLoadRect X1)
            (View.readAt (Elt F) arg6.view (Rect.unit (s := S144x16x144) (k0_off10 k) S8x16x144.size (k0_off10_inb k)).toLoadRect X6)
            (View.readAt (Elt F) arg7.view (Rect.unit (s := S16x16x144) ![0, 0, 0] S16x16x144.size inb_S16x16x144_S16x16x144_0_0_0).toLoadRect f)⟩] := by
  unfold tripL_k0_t5 trip_k0_t5
  rfl

/-! ## Reading a buffer after a store -/

/-- The rank-3 zero offsets, however spelt. -/
theorem zero3 : (![0, 0, 0] : Fin 3 → ℕ) = fun _ => 0 := by
  funext a; fin_cases a <;> rfl

section ViewFacts
variable {sg : RefSig} {κ : Kind} {sp : Space} {S : Shape} {e : EltTy} {Val : EltTy → Type} [∀ e, Nonempty (Val e)]

/-- A store of the whole block, made last, is what the buffer then reads. -/
theorem read_writes_whole_cons (v : View sg κ sp S e) (f : v.ty.Contents Val) {off : Fin S.rank → ℕ} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon v f _ (fun y => ⟨_, List.mem_cons_self, View.mem_set_unit_zero h inb y⟩),
    View.canon_cons_unit_zero h inb w L]

end ViewFacts

/-! ## Chunk `n` of an array through a trip's rectangle -/

/-- Rows `[8n, 8n+8)` of a `[144,16,144]` array through a trip's rectangle, whatever the spelling of its offsets. -/
theorem ld_rows (X : S144x16x144.Idx → EReal) (off : Fin 3 → ℕ) (inb : ∀ a, off a + S8x16x144.size a ≤ S144x16x144.size a) (n : ℕ) (ho : off = ![8 * n, 0, 0])
    (kk : Fin 8) (cc : Fin 16) (x : Fin 144) (h : 8 * n + kk.val < 144) :
    View.ld (Val := Elt Ideal) (e' := .f32) X (Rect.unit (s := S144x16x144) off S8x16x144.size inb) (ix3 kk cc x) = X (ix3 ⟨8 * n + kk.val, h⟩ cc x) := by
  subst ho
  show X _ = X _
  congr 1
  funext a; apply Fin.ext
  show (![8 * n, 0, 0] : Fin 3 → ℕ) a + 1 * ((ix3 kk cc x) a).val = _
  match a with
  | ⟨0, _⟩ => simp [ix3]
  | ⟨1, _⟩ => simp [ix3]
  | ⟨2, _⟩ => simp [ix3]

/-- The same for the votes' `[1,144,16,16,144]` block. -/
theorem ld_rowsU (X : S1x144x16x16x144.Idx → EReal) (off : Fin 5 → ℕ) (inb : ∀ a, off a + S1x8x16x16x144.size a ≤ S1x144x16x16x144.size a) (n : ℕ) (ho : off = ![0, 8 * n, 0, 0, 0])
    (kk : Fin 8) (cc p : Fin 16) (x : Fin 144) (h : 8 * n + kk.val < 144) :
    View.ld (Val := Elt Ideal) (e' := .bf16) X (Rect.unit (s := S1x144x16x16x144) off S1x8x16x16x144.size inb) (ix5 0 kk cc p x) = X (ix5 0 ⟨8 * n + kk.val, h⟩ cc p x) := by
  subst ho
  show X _ = X _
  congr 1
  funext a; apply Fin.ext
  show (![0, 8 * n, 0, 0, 0] : Fin 5 → ℕ) a + 1 * ((ix5 (0 : Fin 1) kk cc p x) a).val = _
  match a with
  | ⟨0, _⟩ => simp [ix5]
  | ⟨1, _⟩ => simp [ix5]
  | ⟨2, _⟩ => simp [ix5]
  | ⟨3, _⟩ => simp [ix5]
  | ⟨4, _⟩ => simp [ix5]

/-! ## One more trip of a vote loop -/

/-- One more trip of vote loop 1, on what the accumulator reads. -/
theorem read_pb1_succ (X1 : BufTy.Contents (Elt F) arg1.view.ty) (X6 : BufTy.Contents (Elt F) arg6.view.ty) (G7 : BufTy.Contents (Elt F) arg7.view.ty) (k : Fin k0_t1_loop.trips) :
    arg7.view.read (Elt F) (arg7.view.writes (Elt F) G7 (pb_k0_t1 (F := F) 𝒱 c bd i arg1 harg1 arg2 harg2 arg3 harg3 arg4 harg4 arg5 harg5 arg6 harg6 arg7 harg7 X1 X6 G7 (k.val + 1)))
      = k0_pay7 (View.ld (arg1.view.read (Elt F) X1) (Rect.unit (s := S1x144x16x16x144) (k0_off1 k) S1x8x16x16x144.size (k0_off1_inb k)))
          (View.ld (arg6.view.read (Elt F) X6) (Rect.unit (s := S144x16x144) (k0_off2 k) S8x16x144.size (k0_off2_inb k)))
          (arg7.view.read (Elt F) (arg7.view.writes (Elt F) G7 (pb_k0_t1 (F := F) 𝒱 c bd i arg1 harg1 arg2 harg2 arg3 harg3 arg4 harg4 arg5 harg5 arg6 harg6 arg7 harg7 X1 X6 G7 k.val))) := by
  rw [pb_k0_t1_succ, tripL1_eq, View.writes_append]
  rw [read_writes_whole_cons _ _ zero3]
  simp only [View.readAt_eq_ld, View.ld_unit_zero (S := S16x16x144) zero3]

/-- One more trip of vote loop 3, on what the accumulator reads. -/
theorem read_pb3_succ (v28 : Vec F S16x16x144 .f32) (X1 : BufTy.Contents (Elt F) arg1.view.ty) (X6 : BufTy.Contents (Elt F) arg6.view.ty) (G7 : BufTy.Contents (Elt F) arg7.view.ty) (k : Fin k0_t3_loop.trips) :
    arg7.view.read (Elt F) (arg7.view.writes (Elt F) G7 (pb_k0_t3 (F := F) 𝒱 c bd i arg1 harg1 arg2 harg2 arg3 harg3 arg4 harg4 arg5 harg5 arg6 harg6 arg7 harg7 v28 X1 X6 G7 (k.val + 1)))
      = k0_pay11 (View.ld (arg1.view.read (Elt F) X1) (Rect.unit (s := S1x144x16x16x144) (k0_off5 k) S1x8x16x16x144.size (k0_off5_inb k)))
          (View.ld (arg6.view.read (Elt F) X6) (Rect.unit (s := S144x16x144) (k0_off6 k) S8x16x144.size (k0_off6_inb k)))
          (arg7.view.read (Elt F) (arg7.view.writes (Elt F) G7 (pb_k0_t3 (F := F) 𝒱 c bd i arg1 harg1 arg2 harg2 arg3 harg3 arg4 harg4 arg5 harg5 arg6 harg6 arg7 harg7 v28 X1 X6 G7 k.val))) := by
  rw [pb_k0_t3_succ, tripL3_eq, View.writes_append]
  rw [read_writes_whole_cons _ _ zero3]
  simp only [View.readAt_eq_ld, View.ld_unit_zero (S := S16x16x144) zero3]

/-- One more trip of vote loop 5, on what the accumulator reads. -/
theorem read_pb5_succ (v59 : Vec F S16x16x144 .f32) (X1 : BufTy.Contents (Elt F) arg1.view.ty) (X6 : BufTy.Contents (Elt F) arg6.view.ty) (G7 : BufTy.Contents (Elt F) arg7.view.ty) (k : Fin k0_t5_loop.trips) :
    arg7.view.read (Elt F) (arg7.view.writes (Elt F) G7 (pb_k0_t5 (F := F) 𝒱 c bd i arg1 harg1 arg2 harg2 arg3 harg3 arg4 harg4 arg5 harg5 arg6 harg6 arg7 harg7 v59 X1 X6 G7 (k.val + 1)))
      = k0_pay15 (View.ld (arg1.view.read (Elt F) X1) (Rect.unit (s := S1x144x16x16x144) (k0_off9 k) S1x8x16x16x144.size (k0_off9_inb k)))
          (View.ld (arg6.view.read (Elt F) X6) (Rect.unit (s := S144x16x144) (k0_off10 k) S8x16x144.size (k0_off10_inb k)))
          (arg7.view.read (Elt F) (arg7.view.writes (Elt F) G7 (pb_k0_t5 (F := F) 𝒱 c bd i arg1 harg1 arg2 harg2 arg3 harg3 arg4 harg4 arg5 harg5 arg6 harg6 arg7 harg7 v59 X1 X6 G7 k.val))) := by
  rw [pb_k0_t5_succ, tripL5_eq, View.writes_append]
  rw [read_writes_whole_cons _ _ zero3]
  simp only [View.readAt_eq_ld, View.ld_unit_zero (S := S16x16x144) zero3]

/-- Each loop runs 18 trips. -/
theorem trips1 : k0_t1_loop.trips = 18 := by decide
theorem trips2 : k0_t2_loop.trips = 18 := by decide
theorem trips3 : k0_t3_loop.trips = 18 := by decide
theorem trips4 : k0_t4_loop.trips = 18 := by decide
theorem trips5 : k0_t5_loop.trips = 18 := by decide

end Cert.KernelIdeal.Steps

end
-- ==== Proof.KernelPayloads.lean ====
/-
  The values the routing kernel stores, read element by element on the extended reals.

  Each stored vector is a chain of pointwise operations, reshapes that insert or drop an axis of extent one,
  repetitions along such an axis, and sums or maxima over one axis. Read at an index given by its coordinates —
  input capsule `B`, output capsule `c`, pose component `p`, pixel `x`, row `k` of a chunk of eight input
  capsules — each is one term of the routing recurrence of `Cert.Routing`: the scaled activation, the softmax of a
  row of logits, zero, a partial sum of coefficient times vote over a chunk, the squashed pose vector, a logit plus
  the agreement of a vote with the squashed output, and the norm of the squashed pose vector.
-/
import proofs.«123957_j17686675325395_1_alg».proof.Proof.Gen.KernelIdeal.Skeleton
import proofs.«123957_j17686675325395_1_alg».proof.Proof.Routing
import Idealize.ShloMosaic.Lib.ValueIdx
import Idealize.ShloMosaic.PureOps.Ideal.Laws
import Idealize.ShloMosaic.Lib.Pipeline.Value

noncomputable section

namespace Cert.KernelPayloads

open Cert.KernelIdeal Cert.KernelIdeal.Gen Idealize.ShloMosaic Idealize.ShloMosaic.ValueIdx
open scoped BigOperators

theorem pay4_apply (v0 : Vec Ideal S1x144x144 .f32) (B : Fin 144) (c : Fin 16) (x : Fin 144) :
    k0_pay4 (F := Ideal) v0 (ix3 B c x) = v0 (ix3 0 B x) * Cert.Routing.wScale := by
  unfold k0_pay4
  refine (shapeCast_apply _ _ (ix3 B c x) (ix3 B c x) rfl).trans ?_
  refine (broadcastTo_apply _ _ (ix3 B c x) (ix3 B 0 x) ?_).trans ?_
  · intro a; match a with | ⟨0, _⟩ => rfl | ⟨1, _⟩ => rfl | ⟨2, _⟩ => rfl
  refine (shapeCast_apply _ _ (ix3 B 0 x) (ix3 B 0 x) rfl).trans ?_
  show shapeCast S144x1x144 (shapeCast S144x144 v0 _) _ (ix3 B 0 x) * _ = _
  refine congrArg (· * Cert.Routing.wScale) ?_
  refine (shapeCast_apply _ _ (ix3 B 0 x) (ix2 B x) ?_).trans ?_
  · rw [Shape.rowMajor_val_two, Shape.rowMajor_val_three]; show B.val * 144 + x.val = (B.val * 1 + 0) * 144 + x.val; omega
  refine (shapeCast_apply _ _ (ix2 B x) (ix3 0 B x) ?_)
  rw [Shape.rowMajor_val_two, Shape.rowMajor_val_three]; show ((0 * 144 + B.val) * 144 + x.val) = B.val * 144 + x.val; omega

theorem pay6_eq : k0_pay6 (F := Ideal) = fun _ => (0 : EReal) := by
  funext i
  unfold k0_pay6
  refine (congrFun (shapeCast_self _ _) i).trans ?_
  exact Ideal.ofBits_zero_f32

theorem pay10_eq : k0_pay10 (F := Ideal) = k0_pay6 := rfl
theorem pay14_eq : k0_pay14 (F := Ideal) = k0_pay6 := rfl

theorem pay2_apply (s : Vec Ideal S16x16x144 .f32) (c p : Fin 16) (x : Fin 144) :
    k0_pay2 (F := Ideal) s (ix4 0 c p x) = k0_pay1 (F := Ideal) s (ix3 c p x) := by
  unfold k0_pay2
  refine (shapeCast_apply _ _ (ix4 0 c p x) (ix3 c p x) ?_)
  rw [Shape.rowMajor_val_three, Shape.rowMajor_val_four]; show (c.val * 16 + p.val) * 144 + x.val = ((0 * 16 + c.val) * 16 + p.val) * 144 + x.val; omega

/-! ## The index a one-axis reduction reads: the reduced index with the coordinate inserted -/

theorem lift_mid16 (h : S16x16x144.Reduces [1] S16x144) (c : Fin 16) (x : Fin 144) (p : Fin 16) :
    h.lift (ix2 c x) p = ix3 c p x := by
  funext a; match a with | ⟨0, _⟩ => rfl | ⟨1, _⟩ => rfl | ⟨2, _⟩ => rfl

theorem lift_mid144 (h : S144x16x144.Reduces [1] S144x144) (B : Fin 144) (x : Fin 144) (c : Fin 16) :
    h.lift (ix2 B x) c = ix3 B c x := by
  funext a; match a with | ⟨0, _⟩ => rfl | ⟨1, _⟩ => rfl | ⟨2, _⟩ => rfl

theorem lift_lead8 (h : S8x16x16x144.Reduces [0] S16x16x144) (c p : Fin 16) (x : Fin 144) (k : Fin 8) :
    h.lift (ix3 c p x) k = ix4 k c p x := by
  funext a; match a with | ⟨0, _⟩ => rfl | ⟨1, _⟩ => rfl | ⟨2, _⟩ => rfl | ⟨3, _⟩ => rfl

theorem lift_pose8 (h : S8x16x16x144.Reduces [2] S8x16x144) (k : Fin 8) (c : Fin 16) (x : Fin 144) (p : Fin 16) :
    h.lift (ix3 k c x) p = ix4 k c p x := by
  funext a; match a with | ⟨0, _⟩ => rfl | ⟨1, _⟩ => rfl | ⟨2, _⟩ => rfl | ⟨3, _⟩ => rfl

/-- The sum over the pose components of a [16, 16, 144] vector. -/
theorem sum_mid16 (v : FVec Ideal S16x16x144 .f32) (acc : BitVec 32) (h : S16x16x144.Reduces [1] S16x144)
    (hφ : FKind.Formats .f32) (hacc : acc = FKind.add.neutral .f32 hφ) (c : Fin 16) (x : Fin 144) :
    multiReduction .add [1] S16x144 v acc h hφ hacc (ix2 c x) = ∑ p : Fin 16, v (ix3 c p x) :=
  (Ideal.multiReduction_add_single v acc h hφ hacc (ix2 c x)).trans
    (Finset.sum_congr rfl fun p _ => congrArg v (lift_mid16 h c x p))

/-- The sum over the output capsules of a [144, 16, 144] vector. -/
theorem sum_mid144 (v : FVec Ideal S144x16x144 .f32) (acc : BitVec 32) (h : S144x16x144.Reduces [1] S144x144)
    (hφ : FKind.Formats .f32) (hacc : acc = FKind.add.neutral .f32 hφ) (B : Fin 144) (x : Fin 144) :
    multiReduction .add [1] S144x144 v acc h hφ hacc (ix2 B x) = ∑ c : Fin 16, v (ix3 B c x) :=
  (Ideal.multiReduction_add_single v acc h hφ hacc (ix2 B x)).trans
    (Finset.sum_congr rfl fun c _ => congrArg v (lift_mid144 h B x c))

/-- The maximum over the output capsules of a [144, 16, 144] vector. -/
theorem max_mid144 (v : FVec Ideal S144x16x144 .f32) (acc : BitVec 32) (h : S144x16x144.Reduces [1] S144x144)
    (hφ : FKind.Formats .f32) (hacc : acc = FKind.maximumf.neutral .f32 hφ) (B : Fin 144) (x : Fin 144) :
    multiReduction .maximumf [1] S144x144 v acc h hφ hacc (ix2 B x)
      = (Finset.univ : Finset (Fin 16)).fold max (Ideal.ofBits .f32 acc) (fun c => v (ix3 B c x)) :=
  (Ideal.multiReduction_maximumf_single v acc h hφ hacc (ix2 B x)).trans
    (congrArg ((Finset.univ : Finset (Fin 16)).fold max (Ideal.ofBits .f32 acc))
      (funext fun c => congrArg v (lift_mid144 h B x c)))

/-- The sum over a chunk's eight rows of an [8, 16, 16, 144] vector. -/
theorem sum_lead8 (v : FVec Ideal S8x16x16x144 .f32) (acc : BitVec 32) (h : S8x16x16x144.Reduces [0] S16x16x144)
    (hφ : FKind.Formats .f32) (hacc : acc = FKind.add.neutral .f32 hφ) (c p : Fin 16) (x : Fin 144) :
    multiReduction .add [0] S16x16x144 v acc h hφ hacc (ix3 c p x) = ∑ k : Fin 8, v (ix4 k c p x) :=
  (Ideal.multiReduction_add_single v acc h hφ hacc (ix3 c p x)).trans
    (Finset.sum_congr rfl fun k _ => congrArg v (lift_lead8 h c p x k))

/-- The sum over the pose components of an [8, 16, 16, 144] vector. -/
theorem sum_pose8 (v : FVec Ideal S8x16x16x144 .f32) (acc : BitVec 32) (h : S8x16x16x144.Reduces [2] S8x16x144)
    (hφ : FKind.Formats .f32) (hacc : acc = FKind.add.neutral .f32 hφ) (k : Fin 8) (c : Fin 16) (x : Fin 144) :
    multiReduction .add [2] S8x16x144 v acc h hφ hacc (ix3 k c x) = ∑ p : Fin 16, v (ix4 k c p x) :=
  (Ideal.multiReduction_add_single v acc h hφ hacc (ix3 k c x)).trans
    (Finset.sum_congr rfl fun p _ => congrArg v (lift_pose8 h k c x p))

theorem pay3_apply (s : Vec Ideal S16x16x144 .f32) (c : Fin 16) (x : Fin 144) :
    k0_pay3 (F := Ideal) s (ix3 0 c x)
      = Ideal.sqrt (∑ p : Fin 16, k0_pay1 (F := Ideal) s (ix3 c p x) * k0_pay1 (F := Ideal) s (ix3 c p x)) := by
  unfold k0_pay3
  refine (shapeCast_apply _ _ (ix3 0 c x) (ix2 c x) ?_).trans ?_
  · rw [Shape.rowMajor_val_two, Shape.rowMajor_val_three]
    show c.val * 144 + x.val = (0 * 16 + c.val) * 144 + x.val; omega
  refine congrArg Ideal.sqrt ?_
  exact sum_mid16 _ _ _ _ _ c x

theorem pay7_apply (ublk : Vec Ideal S1x8x16x16x144 .bf16) (cblk : Vec Ideal S8x16x144 .f32)
    (acc : Vec Ideal S16x16x144 .f32) (c p : Fin 16) (x : Fin 144) :
    k0_pay7 (F := Ideal) ublk cblk acc (ix3 c p x)
      = acc (ix3 c p x) + ∑ k : Fin 8, cblk (ix3 k c x) * ublk (ix5 0 k c p x) := by
  unfold k0_pay7
  refine (shapeCast_apply _ _ (ix3 c p x) (ix3 c p x) rfl).trans ?_
  refine congrArg (acc (ix3 c p x) + ·) ?_
  refine (sum_lead8 _ _ _ _ _ c p x).trans ?_
  refine Finset.sum_congr rfl fun k _ => ?_
  refine congrArg₂ (· * ·) ?_ ?_
  · refine (broadcastTo_apply _ _ (ix4 k c p x) (ix4 k c 0 x) ?_).trans ?_
    · intro a; match a with | ⟨0, _⟩ => rfl | ⟨1, _⟩ => rfl | ⟨2, _⟩ => rfl | ⟨3, _⟩ => rfl
    refine shapeCast_apply _ _ (ix4 k c 0 x) (ix3 k c x) ?_
    rw [Shape.rowMajor_val_three, Shape.rowMajor_val_four]
    show (k.val * 16 + c.val) * 144 + x.val = ((k.val * 16 + c.val) * 1 + 0) * 144 + x.val; omega
  · refine shapeCast_apply _ _ (ix4 k c p x) (ix5 0 k c p x) ?_
    rw [Shape.rowMajor_val_five, Shape.rowMajor_val_four]
    show (((0 * 8 + k.val) * 16 + c.val) * 16 + p.val) * 144 + x.val = ((k.val * 16 + c.val) * 16 + p.val) * 144 + x.val; omega

theorem pay11_eq : k0_pay11 (F := Ideal) = k0_pay7 := rfl
theorem pay15_eq : k0_pay15 (F := Ideal) = k0_pay7 := rfl

/-! ## A row value repeated along the middle axis -/

/-- A [144, 144] vector viewed [144, 1, 144] and repeated over the sixteen output capsules reads its own element. -/
theorem bcast_mid144 {α : Type} (w : S144x144.Idx → α) (h1 : S144x144.ShapeCasts S144x1x144)
    (h2 : S144x1x144.Broadcasts S144x16x144) (B : Fin 144) (c : Fin 16) (x : Fin 144) :
    broadcastTo S144x16x144 (shapeCast S144x1x144 w h1) h2 (ix3 B c x) = w (ix2 B x) := by
  refine (broadcastTo_apply _ _ (ix3 B c x) (ix3 B 0 x) ?_).trans ?_
  · intro a; match a with | ⟨0, _⟩ => rfl | ⟨1, _⟩ => rfl | ⟨2, _⟩ => rfl
  refine shapeCast_apply _ _ (ix3 B 0 x) (ix2 B x) ?_
  rw [Shape.rowMajor_val_two, Shape.rowMajor_val_three]
  show B.val * 144 + x.val = (B.val * 1 + 0) * 144 + x.val; omega

/-- A [16, 1, 144] vector repeated over the sixteen pose components reads its own element. -/
theorem bcast_mid16 {α : Type} (w : S16x1x144.Idx → α) (h2 : S16x1x144.Broadcasts S16x16x144)
    (c p : Fin 16) (x : Fin 144) :
    broadcastTo S16x16x144 w h2 (ix3 c p x) = w (ix3 c 0 x) := by
  refine broadcastTo_apply _ _ (ix3 c p x) (ix3 c 0 x) ?_
  intro a; match a with | ⟨0, _⟩ => rfl | ⟨1, _⟩ => rfl | ⟨2, _⟩ => rfl

/-- A [16, 144] vector viewed [16, 1, 144] reads its own element. -/
theorem cast_mid16 {α : Type} (w : S16x144.Idx → α) (h1 : S16x144.ShapeCasts S16x1x144) (c : Fin 16) (x : Fin 144) :
    shapeCast S16x1x144 w h1 (ix3 c 0 x) = w (ix2 c x) := by
  refine shapeCast_apply _ _ (ix3 c 0 x) (ix2 c x) ?_
  rw [Shape.rowMajor_val_two, Shape.rowMajor_val_three]
  show c.val * 144 + x.val = (c.val * 1 + 0) * 144 + x.val; omega

/-! ## The softmax -/

/-- The exponentials of the logits shifted by their row maximum, as the program forms them. -/
def expVec (r : Vec Ideal S144x16x144 .f32) : FVec Ideal S144x16x144 .f32 :=
  exp (subf r (broadcastTo S144x16x144 (shapeCast S144x1x144
    (multiReduction .maximumf [1] S144x144 r 0xFF800000#32 reduces_S144x16x144_S144x144 (.inl rfl) rfl)
    shapeCasts_S144x144_S144x1x144) broadcasts_S144x1x144_S144x16x144))

theorem expVec_apply (r : Vec Ideal S144x16x144 .f32) (B : Fin 144) (c : Fin 16) (x : Fin 144) :
    expVec r (ix3 B c x) = Cert.Routing.expo (fun c' => r (ix3 B c' x)) c := by
  unfold expVec Cert.Routing.expo Cert.Routing.rowMax
  show Ideal.exp (r (ix3 B c x) - broadcastTo S144x16x144 _ _ (ix3 B c x)) = _
  refine congrArg (fun m => Ideal.exp (r (ix3 B c x) - m)) ?_
  refine (bcast_mid144 _ _ _ B c x).trans ?_
  exact max_mid144 _ _ _ _ _ B x

theorem pay5_apply (r : Vec Ideal S144x16x144 .f32) (B : Fin 144) (c : Fin 16) (x : Fin 144) :
    k0_pay5 (F := Ideal) r (ix3 B c x) = Cert.Routing.couple (fun c' => r (ix3 B c' x)) c := by
  unfold k0_pay5
  refine (shapeCast_apply _ _ (ix3 B c x) (ix3 B c x) rfl).trans ?_
  show Ideal.div (expVec r (ix3 B c x)) (broadcastTo S144x16x144 (shapeCast S144x1x144
    (multiReduction .add [1] S144x144 (expVec r) _ _ _ _) _) _ (ix3 B c x)) = _
  unfold Cert.Routing.couple
  refine congrArg₂ Ideal.div (expVec_apply r B c x) ?_
  refine (bcast_mid144 _ _ _ B c x).trans ?_
  refine (sum_mid144 _ _ _ _ _ B x).trans ?_
  exact Finset.sum_congr rfl fun c' _ => expVec_apply r B c' x

theorem pay9_eq : k0_pay9 (F := Ideal) = k0_pay5 := rfl
theorem pay13_eq : k0_pay13 (F := Ideal) = k0_pay5 := rfl

/-! ## The squash -/

/-- The squared norms of the pose vectors, as the program forms them: one per output capsule and pixel. -/
def n2Vec (s : Vec Ideal S16x16x144 .f32) : FVec Ideal S16x1x144 .f32 :=
  shapeCast S16x1x144
    (multiReduction .add [1] S16x144 (mulf s s) 0x00000000#32 reduces_S16x16x144_S16x144 (.inl rfl) rfl)
    shapeCasts_S16x144_S16x1x144

theorem n2Vec_apply (s : Vec Ideal S16x16x144 .f32) (c : Fin 16) (x : Fin 144) :
    n2Vec s (ix3 c 0 x) = Cert.Routing.norm2 (fun p' => s (ix3 c p' x)) := by
  unfold n2Vec Cert.Routing.norm2
  refine (cast_mid16 _ _ c x).trans ?_
  exact sum_mid16 _ _ _ _ _ c x

theorem pay1_apply (s : Vec Ideal S16x16x144 .f32) (c p : Fin 16) (x : Fin 144) :
    k0_pay1 (F := Ideal) s (ix3 c p x) = Cert.Routing.squash (fun p' => s (ix3 c p' x)) p := by
  unfold k0_pay1 Cert.Routing.squash
  show Ideal.div (broadcastTo S16x16x144 (divf (n2Vec s) (addf (broadcast S16x1x144
      (Scalar.ofBits .f32 0x3F800000#32)) (n2Vec s))) _ (ix3 c p x) * s (ix3 c p x))
    (broadcastTo S16x16x144 (sqrt (n2Vec s)) _ (ix3 c p x)) = _
  refine congrArg₂ Ideal.div (congrArg (· * s (ix3 c p x)) ?_) ?_
  · refine (bcast_mid16 _ _ c p x).trans ?_
    show Ideal.div (n2Vec s (ix3 c 0 x)) (Cert.Routing.wOne + n2Vec s (ix3 c 0 x)) = _
    rw [n2Vec_apply]
  · refine (bcast_mid16 _ _ c p x).trans ?_
    show Ideal.sqrt (n2Vec s (ix3 c 0 x)) = _
    rw [n2Vec_apply]

/-! ## One chunk of the logit update -/

/-- A chunk of votes [1, 8, 16, 16, 144] viewed [8, 16, 16, 144] reads its own element. -/
theorem cast_chunk {α : Type} (u : S1x8x16x16x144.Idx → α) (h : S1x8x16x16x144.ShapeCasts S8x16x16x144)
    (k : Fin 8) (c p : Fin 16) (x : Fin 144) :
    shapeCast S8x16x16x144 u h (ix4 k c p x) = u (ix5 0 k c p x) := by
  refine shapeCast_apply _ _ (ix4 k c p x) (ix5 0 k c p x) ?_
  rw [Shape.rowMajor_val_five, Shape.rowMajor_val_four]
  show (((0 * 8 + k.val) * 16 + c.val) * 16 + p.val) * 144 + x.val
    = ((k.val * 16 + c.val) * 16 + p.val) * 144 + x.val
  omega

/-- The output capsules [16, 16, 144] viewed [1, 16, 16, 144] and repeated over a chunk's eight rows read their own
    element. -/
theorem bcast_lead8 {α : Type} (w : S16x16x144.Idx → α) (h1 : S16x16x144.ShapeCasts S1x16x16x144)
    (h2 : S1x16x16x144.Broadcasts S8x16x16x144) (k : Fin 8) (c p : Fin 16) (x : Fin 144) :
    broadcastTo S8x16x16x144 (shapeCast S1x16x16x144 w h1) h2 (ix4 k c p x) = w (ix3 c p x) := by
  refine (broadcastTo_apply _ _ (ix4 k c p x) (ix4 0 c p x) ?_).trans ?_
  · intro a; match a with | ⟨0, _⟩ => rfl | ⟨1, _⟩ => rfl | ⟨2, _⟩ => rfl | ⟨3, _⟩ => rfl
  refine shapeCast_apply _ _ (ix4 0 c p x) (ix3 c p x) ?_
  rw [Shape.rowMajor_val_three, Shape.rowMajor_val_four]
  show (c.val * 16 + p.val) * 144 + x.val = ((0 * 16 + c.val) * 16 + p.val) * 144 + x.val
  omega

theorem pay8_apply (s : Vec Ideal S16x16x144 .f32) (ublk : Vec Ideal S1x8x16x16x144 .bf16)
    (rblk : Vec Ideal S8x16x144 .f32) (k : Fin 8) (c : Fin 16) (x : Fin 144) :
    k0_pay8 (F := Ideal) s ublk rblk (ix3 k c x)
      = rblk (ix3 k c x)
        + ∑ p : Fin 16, ublk (ix5 0 k c p x) * Cert.Routing.squash (fun p' => s (ix3 c p' x)) p := by
  show shapeCast S8x16x144 (addf rblk (multiReduction .add [2] S8x16x144
      (mulf (extf .f32 (shapeCast S8x16x16x144 ublk shapeCasts_S1x8x16x16x144_S8x16x16x144) bitsLt_bf16_f32)
        (broadcastTo S8x16x16x144 (shapeCast S1x16x16x144 (k0_pay1 (F := Ideal) s) shapeCasts_S16x16x144_S1x16x16x144)
          broadcasts_S1x16x16x144_S8x16x16x144))
      0x00000000#32 reduces_S8x16x16x144_S8x16x144 (.inl rfl) rfl)) shapeCasts_S8x16x144_S8x16x144 (ix3 k c x) = _
  refine (shapeCast_apply _ _ (ix3 k c x) (ix3 k c x) rfl).trans ?_
  refine congrArg (rblk (ix3 k c x) + ·) ?_
  refine (sum_pose8 _ _ _ _ _ k c x).trans ?_
  refine Finset.sum_congr rfl fun p _ => ?_
  refine congrArg₂ (· * ·) ?_ ?_
  · exact cast_chunk _ _ k c p x
  · exact (bcast_lead8 _ _ _ k c p x).trans (pay1_apply s c p x)

theorem pay12_eq : k0_pay12 (F := Ideal) = k0_pay8 := rfl

end Cert.KernelPayloads
end
-- ==== Proof.LibBlockSum.lean ====
/-
  A sum over the first B·(j+1) natural numbers, taken block by block: the terms before block j, plus the B terms of
  block j. This is how a contraction over a long axis is accumulated in pieces of width B; over a commutative monoid
  (the extended reals under addition are one) the pieces add up to the whole sum, whatever the values.
-/
import Mathlib.Algebra.BigOperators.Fin
import Mathlib.Algebra.BigOperators.Intervals

namespace Cert.Lib.BlockSum

open Finset

variable {M : Type*} [AddCommMonoid M]

/-- The terms before block `j`, plus the `B` terms of block `j`, are the terms before block `j + 1`. -/
theorem sum_range_block (f : ℕ → M) (B j : ℕ) :
    ∑ k ∈ range (B * j), f k + ∑ k : Fin B, f (B * j + k.val) = ∑ k ∈ range (B * (j + 1)), f k := by
  rw [Nat.mul_succ, Finset.sum_range_add, Finset.sum_range (fun k => f (B * j + k))]

/-- Block 0 alone: its `B` terms are the terms before block 1. -/
theorem sum_first_block (f : ℕ → M) (B : ℕ) :
    ∑ k : Fin B, f (B * 0 + k.val) = ∑ k ∈ range (B * (0 + 1)), f k := by
  rw [← sum_range_block f B 0, Nat.mul_zero, Finset.range_zero, Finset.sum_empty, zero_add]

end Cert.Lib.BlockSum
-- ==== Proof.BodyLoops.lean ====
/-
  The kernel body's five counted loops in closed form.

  A VOTE loop leaves in the accumulator what it found there plus, for every output capsule `c`, pose component `p`
  and pixel `x`, the sum over ALL 144 input capsules `B` of coefficient(B, c, x) · vote(B, c, p, x): the 18 chunks
  of 8 add up to the whole sum, in any commutative monoid, so also over the extended reals. An UPDATE loop leaves in
  row `B` of the logits what it found there plus the agreement ∑ₚ vote(B, c, p, x) · squash(s)(c, p, x): after `n`
  trips the rows below `8n` are updated and the others untouched.
-/
import proofs.«123957_j17686675325395_1_alg».proof.Proof.BodyTrips
import proofs.«123957_j17686675325395_1_alg».proof.Proof.KernelPayloads
import proofs.«123957_j17686675325395_1_alg».proof.Proof.LibBlockSum

set_option maxRecDepth 16384

noncomputable section

namespace Cert.KernelIdeal.Steps

open Cert.KernelIdeal Cert.KernelIdeal.Gen Cert.KernelPayloads
open Idealize.ShloMosaic Idealize.ShloMosaic.TcCoe Idealize.ShloMosaic.ValueIdx
open Idealize.SL Idealize.SL.Sem
open scoped BigOperators

variable (𝒱 : Variants) (c : Dev nD) (bd : Option 𝒱.V) (i : grid0.Coords) (arg1 : Memref sig .tc .vmem S1x144x16x16x144 .bf16) (harg1 : arg1.IsWhole) (arg2 : Memref sig .tc .vmem S1x144x144 .f32) (harg2 : arg2.IsWhole) (arg3 : Memref sig .tc .vmem S1x16x16x144 .f32) (harg3 : arg3.IsWhole) (arg4 : Memref sig .tc .vmem S1x16x144 .f32) (harg4 : arg4.IsWhole) (arg5 : Memref sig .tc .vmem S144x16x144 .f32) (harg5 : arg5.IsWhole) (arg6 : Memref sig .tc .vmem S144x16x144 .f32) (harg6 : arg6.IsWhole) (arg7 : Memref sig .tc .vmem S16x16x144 .f32) (harg7 : arg7.IsWhole)

/-- One term of the weighted vote, indexed by a natural number (zero past the last input capsule). -/
def voteTerm (C : S144x16x144.Idx → EReal) (U : S1x144x16x16x144.Idx → EReal) (cc p : Fin 16) (x : Fin 144) (j : ℕ) : EReal :=
  if h : j < 144 then C (ix3 ⟨j, h⟩ cc x) * U (ix5 0 ⟨j, h⟩ cc p x) else 0

/-- The agreement of one input capsule's votes with the squashed accumulator. -/
def agree (s : S16x16x144.Idx → EReal) (U : S1x144x16x16x144.Idx → EReal) (B : Fin 144) (cc : Fin 16) (x : Fin 144) : EReal :=
  ∑ p : Fin 16, U (ix5 0 B cc p x) * Cert.Routing.squash (fun p' => s (ix3 cc p' x)) p

/-- Vote loop 1 after `n` trips: the first `8n` input capsules' terms have been added. -/
theorem vote_loop1 (X1 : BufTy.Contents (Elt Ideal) arg1.view.ty) (X6 : BufTy.Contents (Elt Ideal) arg6.view.ty) (G7 : BufTy.Contents (Elt Ideal) arg7.view.ty)
    (cc p : Fin 16) (x : Fin 144) (n : ℕ) (hn : n ≤ 18) :
    (arg7.view.read (Elt Ideal) (arg7.view.writes (Elt Ideal) G7 (pb_k0_t1 (F := Ideal) 𝒱 c bd i arg1 harg1 arg2 harg2 arg3 harg3 arg4 harg4 arg5 harg5 arg6 harg6 arg7 harg7 X1 X6 G7 n)) (ix3 cc p x) : EReal)
      = arg7.view.read (Elt Ideal) G7 (ix3 cc p x) + ∑ j ∈ Finset.range (8 * n), voteTerm (arg6.view.read (Elt Ideal) X6) (arg1.view.read (Elt Ideal) X1) cc p x j := by
  induction n with
  | zero =>
    rw [pb_k0_t1.eq_1, View.writes_nil]
    simp
  | succ n ih =>
    have hk : n < k0_t1_loop.trips := by rw [trips1]; omega
    have e := read_pb1_succ (F := Ideal) 𝒱 c bd i arg1 harg1 arg2 harg2 arg3 harg3 arg4 harg4 arg5 harg5 arg6 harg6 arg7 harg7 X1 X6 G7 ⟨n, hk⟩
    rw [show (⟨n, hk⟩ : Fin k0_t1_loop.trips).val + 1 = n + 1 from rfl] at e
    rw [e, pay7_apply, ih (by omega), add_assoc]
    congr 1
    rw [← Cert.Lib.BlockSum.sum_range_block _ 8 n]
    congr 1
    refine Finset.sum_congr rfl fun kk _ => ?_
    have hb : 8 * n + kk.val < 144 := by have := kk.isLt; omega
    rw [ld_rows _ _ (k0_off2_inb ⟨n, hk⟩) n (k0_off2_eq ⟨n, hk⟩) kk cc x hb, ld_rowsU _ _ (k0_off1_inb ⟨n, hk⟩) n (k0_off1_eq ⟨n, hk⟩) kk cc p x hb]
    unfold voteTerm
    rw [dif_pos hb]

/-- Update loop 2 after `n` trips: rows below `8n` have gained their agreement, the others are as found. -/
theorem update_loop2 (v28 : Vec Ideal S16x16x144 .f32) (X1 : BufTy.Contents (Elt Ideal) arg1.view.ty) (G5 : BufTy.Contents (Elt Ideal) arg5.view.ty)
    (B : Fin 144) (cc : Fin 16) (x : Fin 144) (n : ℕ) (hn : n ≤ 18) :
    (arg5.view.read (Elt Ideal) (arg5.view.writes (Elt Ideal) G5 (pb_k0_t2 (F := Ideal) 𝒱 c bd i arg1 harg1 arg2 harg2 arg3 harg3 arg4 harg4 arg5 harg5 arg6 harg6 arg7 harg7 v28 X1 G5 n)) (ix3 B cc x) : EReal)
      = if B.val < 8 * n then arg5.view.read (Elt Ideal) G5 (ix3 B cc x) + agree v28 (arg1.view.read (Elt Ideal) X1) B cc x
        else arg5.view.read (Elt Ideal) G5 (ix3 B cc x) := by
  induction n with
  | zero =>
    rw [pb_k0_t2.eq_1, View.writes_nil]
    simp
  | succ n ih =>
    have hk : n < k0_t2_loop.trips := by rw [trips2]; omega
    have ih' := ih (by omega)
    have e0 : (⟨n, hk⟩ : Fin k0_t2_loop.trips).val = n := rfl
    rw [show n + 1 = (⟨n, hk⟩ : Fin k0_t2_loop.trips).val + 1 from rfl, pb_k0_t2_succ, tripL2_eq, View.writes_append]
    by_cases hin : 8 * n ≤ B.val ∧ B.val < 8 * n + 8
    · have hb : 8 * n + (B.val - 8 * n) < 144 := by have := B.isLt; omega
      have hB : B = ⟨8 * n + (⟨B.val - 8 * n, by omega⟩ : Fin 8).val, hb⟩ := Fin.ext (by simp; omega)
      refine (View.read_writes_cons_unit_of_mem (s := S144x16x144) (off := k0_off4 ⟨n, hk⟩) (off' := ![8 * n, 0, 0]) (size := S8x16x144.size) arg5.view _ (k0_off4_inb ⟨n, hk⟩) _ [] (ix3 B cc x) (ix3 (⟨B.val - 8 * n, by omega⟩ : Fin 8) cc x) (k0_off4_eq ⟨n, hk⟩)
        (fun a => by match a with
          | ⟨0, _⟩ => simp [ix3]; omega
          | ⟨1, _⟩ => simp [ix3]
          | ⟨2, _⟩ => simp [ix3])).trans ?_
      rw [pay8_apply]
      simp only [View.readAt_eq_ld]
      rw [ld_rows _ _ (k0_off4_inb ⟨n, hk⟩) n (k0_off4_eq ⟨n, hk⟩) _ cc x hb, ← hB]
      rw [ih', if_neg (by omega), if_pos (by omega)]
      congr 1
      unfold agree
      refine Finset.sum_congr rfl fun p _ => ?_
      rw [ld_rowsU _ _ (k0_off3_inb ⟨n, hk⟩) n (k0_off3_eq ⟨n, hk⟩) _ cc p x hb, ← hB]
    · refine (View.read_writes_cons_unit_of_not_mem (s := S144x16x144) (off := k0_off4 ⟨n, hk⟩) (off' := ![8 * n, 0, 0]) (size := S8x16x144.size) arg5.view _ (k0_off4_inb ⟨n, hk⟩) _ [] (ix3 B cc x) (k0_off4_eq ⟨n, hk⟩) (0 : Fin 3)
        (by simp [ix3]; omega)).trans ?_
      rw [View.writes_nil]
      refine ih'.trans ?_
      by_cases h1 : B.val < 8 * n
      · rw [if_pos h1, if_pos (by omega)]
      · rw [if_neg h1, if_neg (by omega)]

/-- Vote loop 3 after `n` trips: the first `8n` input capsules' terms have been added. -/
theorem vote_loop3 (v28 : Vec Ideal S16x16x144 .f32) (X1 : BufTy.Contents (Elt Ideal) arg1.view.ty) (X6 : BufTy.Contents (Elt Ideal) arg6.view.ty) (G7 : BufTy.Contents (Elt Ideal) arg7.view.ty)
    (cc p : Fin 16) (x : Fin 144) (n : ℕ) (hn : n ≤ 18) :
    (arg7.view.read (Elt Ideal) (arg7.view.writes (Elt Ideal) G7 (pb_k0_t3 (F := Ideal) 𝒱 c bd i arg1 harg1 arg2 harg2 arg3 harg3 arg4 harg4 arg5 harg5 arg6 harg6 arg7 harg7 v28 X1 X6 G7 n)) (ix3 cc p x) : EReal)
      = arg7.view.read (Elt Ideal) G7 (ix3 cc p x) + ∑ j ∈ Finset.range (8 * n), voteTerm (arg6.view.read (Elt Ideal) X6) (arg1.view.read (Elt Ideal) X1) cc p x j := by
  induction n with
  | zero =>
    rw [pb_k0_t3.eq_1, View.writes_nil]
    simp
  | succ n ih =>
    have hk : n < k0_t3_loop.trips := by rw [trips3]; omega
    have e := read_pb3_succ (F := Ideal) 𝒱 c bd i arg1 harg1 arg2 harg2 arg3 harg3 arg4 harg4 arg5 harg5 arg6 harg6 arg7 harg7 v28 X1 X6 G7 ⟨n, hk⟩
    rw [show (⟨n, hk⟩ : Fin k0_t3_loop.trips).val + 1 = n + 1 from rfl] at e
    rw [e, pay11_eq, pay7_apply, ih (by omega), add_assoc]
    congr 1
    rw [← Cert.Lib.BlockSum.sum_range_block _ 8 n]
    congr 1
    refine Finset.sum_congr rfl fun kk _ => ?_
    have hb : 8 * n + kk.val < 144 := by have := kk.isLt; omega
    rw [ld_rows _ _ (k0_off6_inb ⟨n, hk⟩) n (k0_off6_eq ⟨n, hk⟩) kk cc x hb, ld_rowsU _ _ (k0_off5_inb ⟨n, hk⟩) n (k0_off5_eq ⟨n, hk⟩) kk cc p x hb]
    unfold voteTerm
    rw [dif_pos hb]

/-- Update loop 4 after `n` trips: rows below `8n` have gained their agreement, the others are as found. -/
theorem update_loop4 (v59 : Vec Ideal S16x16x144 .f32) (X1 : BufTy.Contents (Elt Ideal) arg1.view.ty) (G5 : BufTy.Contents (Elt Ideal) arg5.view.ty)
    (B : Fin 144) (cc : Fin 16) (x : Fin 144) (n : ℕ) (hn : n ≤ 18) :
    (arg5.view.read (Elt Ideal) (arg5.view.writes (Elt Ideal) G5 (pb_k0_t4 (F := Ideal) 𝒱 c bd i arg1 harg1 arg2 harg2 arg3 harg3 arg4 harg4 arg5 harg5 arg6 harg6 arg7 harg7 v59 X1 G5 n)) (ix3 B cc x) : EReal)
      = if B.val < 8 * n then arg5.view.read (Elt Ideal) G5 (ix3 B cc x) + agree v59 (arg1.view.read (Elt Ideal) X1) B cc x
        else arg5.view.read (Elt Ideal) G5 (ix3 B cc x) := by
  induction n with
  | zero =>
    rw [pb_k0_t4.eq_1, View.writes_nil]
    simp
  | succ n ih =>
    have hk : n < k0_t4_loop.trips := by rw [trips4]; omega
    have ih' := ih (by omega)
    have e0 : (⟨n, hk⟩ : Fin k0_t4_loop.trips).val = n := rfl
    rw [show n + 1 = (⟨n, hk⟩ : Fin k0_t4_loop.trips).val + 1 from rfl, pb_k0_t4_succ, tripL4_eq, View.writes_append]
    by_cases hin : 8 * n ≤ B.val ∧ B.val < 8 * n + 8
    · have hb : 8 * n + (B.val - 8 * n) < 144 := by have := B.isLt; omega
      have hB : B = ⟨8 * n + (⟨B.val - 8 * n, by omega⟩ : Fin 8).val, hb⟩ := Fin.ext (by simp; omega)
      refine (View.read_writes_cons_unit_of_mem (s := S144x16x144) (off := k0_off8 ⟨n, hk⟩) (off' := ![8 * n, 0, 0]) (size := S8x16x144.size) arg5.view _ (k0_off8_inb ⟨n, hk⟩) _ [] (ix3 B cc x) (ix3 (⟨B.val - 8 * n, by omega⟩ : Fin 8) cc x) (k0_off8_eq ⟨n, hk⟩)
        (fun a => by match a with
          | ⟨0, _⟩ => simp [ix3]; omega
          | ⟨1, _⟩ => simp [ix3]
          | ⟨2, _⟩ => simp [ix3])).trans ?_
      rw [pay12_eq, pay8_apply]
      simp only [View.readAt_eq_ld]
      rw [ld_rows _ _ (k0_off8_inb ⟨n, hk⟩) n (k0_off8_eq ⟨n, hk⟩) _ cc x hb, ← hB]
      rw [ih', if_neg (by omega), if_pos (by omega)]
      congr 1
      unfold agree
      refine Finset.sum_congr rfl fun p _ => ?_
      rw [ld_rowsU _ _ (k0_off7_inb ⟨n, hk⟩) n (k0_off7_eq ⟨n, hk⟩) _ cc p x hb, ← hB]
    · refine (View.read_writes_cons_unit_of_not_mem (s := S144x16x144) (off := k0_off8 ⟨n, hk⟩) (off' := ![8 * n, 0, 0]) (size := S8x16x144.size) arg5.view _ (k0_off8_inb ⟨n, hk⟩) _ [] (ix3 B cc x) (k0_off8_eq ⟨n, hk⟩) (0 : Fin 3)
        (by simp [ix3]; omega)).trans ?_
      rw [View.writes_nil]
      refine ih'.trans ?_
      by_cases h1 : B.val < 8 * n
      · rw [if_pos h1, if_pos (by omega)]
      · rw [if_neg h1, if_neg (by omega)]

/-- Vote loop 5 after `n` trips: the first `8n` input capsules' terms have been added. -/
theorem vote_loop5 (v59 : Vec Ideal S16x16x144 .f32) (X1 : BufTy.Contents (Elt Ideal) arg1.view.ty) (X6 : BufTy.Contents (Elt Ideal) arg6.view.ty) (G7 : BufTy.Contents (Elt Ideal) arg7.view.ty)
    (cc p : Fin 16) (x : Fin 144) (n : ℕ) (hn : n ≤ 18) :
    (arg7.view.read (Elt Ideal) (arg7.view.writes (Elt Ideal) G7 (pb_k0_t5 (F := Ideal) 𝒱 c bd i arg1 harg1 arg2 harg2 arg3 harg3 arg4 harg4 arg5 harg5 arg6 harg6 arg7 harg7 v59 X1 X6 G7 n)) (ix3 cc p x) : EReal)
      = arg7.view.read (Elt Ideal) G7 (ix3 cc p x) + ∑ j ∈ Finset.range (8 * n), voteTerm (arg6.view.read (Elt Ideal) X6) (arg1.view.read (Elt Ideal) X1) cc p x j := by
  induction n with
  | zero =>
    rw [pb_k0_t5.eq_1, View.writes_nil]
    simp
  | succ n ih =>
    have hk : n < k0_t5_loop.trips := by rw [trips5]; omega
    have e := read_pb5_succ (F := Ideal) 𝒱 c bd i arg1 harg1 arg2 harg2 arg3 harg3 arg4 harg4 arg5 harg5 arg6 harg6 arg7 harg7 v59 X1 X6 G7 ⟨n, hk⟩
    rw [show (⟨n, hk⟩ : Fin k0_t5_loop.trips).val + 1 = n + 1 from rfl] at e
    rw [e, pay15_eq, pay7_apply, ih (by omega), add_assoc]
    congr 1
    rw [← Cert.Lib.BlockSum.sum_range_block _ 8 n]
    congr 1
    refine Finset.sum_congr rfl fun kk _ => ?_
    have hb : 8 * n + kk.val < 144 := by have := kk.isLt; omega
    rw [ld_rows _ _ (k0_off10_inb ⟨n, hk⟩) n (k0_off10_eq ⟨n, hk⟩) kk cc x hb, ld_rowsU _ _ (k0_off9_inb ⟨n, hk⟩) n (k0_off9_eq ⟨n, hk⟩) kk cc p x hb]
    unfold voteTerm
    rw [dif_pos hb]

end Cert.KernelIdeal.Steps

end
-- ==== Proof.BodyValue.lean ====
/-
  What the kernel body leaves in its two output blocks at one grid point, pixel by pixel: the routing of that pixel's
  votes and activations.

  The body reads its blocks `x0` (the votes of one batch element, `[1, 144, 16, 16, 144]`) and `x1` (the activations,
  `[1, 144, 144]`), and alternates three times between the coupling coefficients (a softmax of the logits), the vote
  loop and the squash; twice it also runs the update loop on the logits. Following the stores and loads in order, the
  logits scratch reads `logit0`, then `step` of it, then `step` of that; the accumulator, zeroed before each vote
  loop, reads the weighted vote of the current logits; and the two stores into the output blocks are the squash of the
  third weighted vote and its norms — the specification's `vOut` and `aOut` at the pixel.
-/
import proofs.«123957_j17686675325395_1_alg».proof.Proof.Gen.KernelIdeal.Frame
import proofs.«123957_j17686675325395_1_alg».proof.Proof.BodyLoops

set_option maxRecDepth 16384

noncomputable section

namespace Cert.KernelIdeal.Steps

open Cert.KernelIdeal Cert.KernelIdeal.Gen Cert.KernelPayloads Cert.Routing
open Idealize.ShloMosaic Idealize.ShloMosaic.TcCoe Idealize.ShloMosaic.ValueIdx
open Idealize.SL Idealize.SL.Sem
open scoped BigOperators

variable (c : Dev nD) (i : grid0.Coords) (arg1 : Memref sig .tc .vmem S1x144x16x16x144 .bf16) (harg1 : arg1.IsWhole) (arg2 : Memref sig .tc .vmem S1x144x144 .f32) (harg2 : arg2.IsWhole) (arg3 : Memref sig .tc .vmem S1x16x16x144 .f32) (harg3 : arg3.IsWhole) (arg4 : Memref sig .tc .vmem S1x16x144 .f32) (harg4 : arg4.IsWhole) (arg5 : Memref sig .tc .vmem S144x16x144 .f32) (harg5 : arg5.IsWhole) (arg6 : Memref sig .tc .vmem S144x16x144 .f32) (harg6 : arg6.IsWhole) (arg7 : Memref sig .tc .vmem S16x16x144 .f32) (harg7 : arg7.IsWhole)
  (x0 : Vec Ideal S1x144x16x16x144 .bf16) (x1 : Vec Ideal S1x144x144 .f32)

/-- The votes and the activations of one pixel of the blocks. -/
abbrev votesAt (x0 : S1x144x16x16x144.Idx → EReal) (x : Fin 144) : Fin 144 → Fin 16 → Fin 16 → EReal := fun B cc p => x0 (ix5 0 B cc p x)
abbrev actsAt (x1 : S1x144x144.Idx → EReal) (x : Fin 144) : Fin 144 → EReal := fun B => x1 (ix3 0 B x)

/-- All 144 terms of a weighted vote, when the coefficients are the softmax of the logits `R`. -/
theorem sum_voteTerm (C : S144x16x144.Idx → EReal) (X : S1x144x16x16x144.Idx → EReal) (R : Fin 144 → Fin 16 → EReal) (x : Fin 144)
    (hC : ∀ B cc, C (ix3 B cc x) = couple (R B) cc) (cc p : Fin 16) :
    ∑ j ∈ Finset.range (8 * 18), voteTerm C X cc p x j = vote R (votesAt X x) cc p := by
  unfold vote
  rw [show 8 * 18 = 144 from rfl, Finset.sum_range]
  refine Finset.sum_congr rfl fun B _ => ?_
  unfold voteTerm
  rw [dif_pos B.isLt, Fin.eta, hC]

/-- The agreement term, when the accumulator is the weighted vote of `R`. -/
theorem agree_eq (s : S16x16x144.Idx → EReal) (X : S1x144x16x16x144.Idx → EReal) (R : Fin 144 → Fin 16 → EReal) (x : Fin 144)
    (hs : ∀ cc p, s (ix3 cc p x) = vote R (votesAt X x) cc p) (B : Fin 144) (cc : Fin 16) :
    agree s X B cc x = ∑ p : Fin 16, votesAt X x B cc p * outv R (votesAt X x) cc p := by
  unfold agree outv
  refine Finset.sum_congr rfl fun p _ => ?_
  congr 2
  funext p'
  exact hs cc p'

theorem zero4 : (![0, 0, 0, 0] : Fin 4 → ℕ) = fun _ => 0 := by
  funext a; fin_cases a <;> rfl

/-! ## The scratch buffers, stage by stage -/

/-- The logits before the first round. -/
theorem logits0_apply (B : Fin 144) (cc : Fin 16) (x : Fin 144) :
    (kernelRun0_A.sl.v10 (F := Ideal) c arg2 harg2 arg5 x1 : S144x16x144.Idx → EReal) (ix3 B cc x) = logit0 (actsAt x1 x) B cc := by
  unfold kernelRun0_A.sl.v10 kernelRun0_A.sl.HS0_1
  rw [View.readCov_unit_zero _ zero3]
  simp only [View.readAt_eq_ld, View.ld_unit_zero (S := S1x144x144) zero3, harg2.read_unread]
  rw [pay4_apply]
  rfl

/-- The first weighted vote. -/
theorem vote1_apply (cc p : Fin 16) (x : Fin 144) :
    ((kernelRun0_A.sl.v (F := Ideal) c i arg1 harg1 arg2 harg2 arg3 harg3 arg4 harg4 arg5 harg5 arg6 harg6 arg7 harg7 x0 x1) : S16x16x144.Idx → EReal) (ix3 cc p x) = vote (logit0 (actsAt x1 x)) (votesAt x0 x) cc p := by
  unfold kernelRun0_A.sl.v
  rw [View.readAt_eq_ld, View.ld_unit_zero (S := S16x16x144) zero3, View.writes_append]
  have ht : (Scf.trips k0_t1_loop.lb k0_t1_loop.ub k0_t1_loop.st) = 18 := trips1
  rw [ht, vote_loop1 Variants.none c none i arg1 harg1 arg2 harg2 arg3 harg3 arg4 harg4 arg5 harg5 arg6 harg6 arg7 harg7 _ _ _ cc p x 18 le_rfl]
  unfold kernelRun0_A.sl.HS2_1 kernelRun0_A.sl.HS1_1
  rw [read_writes_whole_cons _ _ zero3, read_writes_whole_cons _ _ zero3, harg1.read_unread]
  rw [pay6_eq, sum_voteTerm _ _ (logit0 (actsAt x1 x)) x (fun B cc => by
    rw [pay5_apply]; congr 1; funext c'; exact logits0_apply c arg2 harg2 arg5 x1 B c' x) cc p]
  exact zero_add _

/-- The logits after the first update loop, as the scratch buffer reads. -/
theorem logits1_read (B : Fin 144) (cc : Fin 16) (x : Fin 144) :
    (arg5.view.read (Elt Ideal) (arg5.view.writes (Elt Ideal) arg5.view.junk
      (pb_k0_t2 (F := Ideal) Variants.none c none i arg1 harg1 arg2 harg2 arg3 harg3 arg4 harg4 arg5 harg5 arg6 harg6 arg7 harg7 (kernelRun0_A.sl.v (F := Ideal) c i arg1 harg1 arg2 harg2 arg3 harg3 arg4 harg4 arg5 harg5 arg6 harg6 arg7 harg7 x0 x1) (harg1.unread x0) (arg5.view.writes (Elt Ideal) arg5.view.junk (kernelRun0_A.sl.HS0_1 (F := Ideal) c arg2 harg2 x1)) 18
        ++ kernelRun0_A.sl.HS0_1 (F := Ideal) c arg2 harg2 x1)) (ix3 B cc x) : EReal) = step (logit0 (actsAt x1 x)) (votesAt x0 x) B cc := by
  rw [View.writes_append]
  rw [update_loop2 Variants.none c none i arg1 harg1 arg2 harg2 arg3 harg3 arg4 harg4 arg5 harg5 arg6 harg6 arg7 harg7 _ _ _ B cc x 18 le_rfl, if_pos (by have := B.isLt; omega)]
  unfold kernelRun0_A.sl.HS0_1
  rw [read_writes_whole_cons _ _ zero3, harg1.read_unread]
  simp only [View.readAt_eq_ld, View.ld_unit_zero (S := S1x144x144) zero3, harg2.read_unread]
  rw [pay4_apply, agree_eq _ _ (logit0 (actsAt x1 x)) x (fun cc p => vote1_apply c i arg1 harg1 arg2 harg2 arg3 harg3 arg4 harg4 arg5 harg5 arg6 harg6 arg7 harg7 x0 x1 cc p x)]
  rfl

theorem logits1_apply (B : Fin 144) (cc : Fin 16) (x : Fin 144) :
    ((kernelRun0_A.sl.v41 (F := Ideal) c i arg1 harg1 arg2 harg2 arg3 harg3 arg4 harg4 arg5 harg5 arg6 harg6 arg7 harg7 x0 x1) : S144x16x144.Idx → EReal) (ix3 B cc x) = step (logit0 (actsAt x1 x)) (votesAt x0 x) B cc := by
  unfold kernelRun0_A.sl.v41
  rw [View.readAt_eq_ld, View.ld_unit_zero (S := S144x16x144) zero3]
  have ht : (Scf.trips k0_t2_loop.lb k0_t2_loop.ub k0_t2_loop.st) = 18 := trips2
  rw [ht]
  exact logits1_read c i arg1 harg1 arg2 harg2 arg3 harg3 arg4 harg4 arg5 harg5 arg6 harg6 arg7 harg7 x0 x1 B cc x

/-- The second weighted vote. -/
theorem vote2_apply (cc p : Fin 16) (x : Fin 144) :
    ((kernelRun0_A.sl.v_1 (F := Ideal) c i arg1 harg1 arg2 harg2 arg3 harg3 arg4 harg4 arg5 harg5 arg6 harg6 arg7 harg7 x0 x1) : S16x16x144.Idx → EReal) (ix3 cc p x) = vote (step (logit0 (actsAt x1 x)) (votesAt x0 x)) (votesAt x0 x) cc p := by
  unfold kernelRun0_A.sl.v_1
  rw [View.readAt_eq_ld, View.ld_unit_zero (S := S16x16x144) zero3, View.writes_append]
  have ht : (Scf.trips k0_t3_loop.lb k0_t3_loop.ub k0_t3_loop.st) = 18 := trips3
  rw [ht, vote_loop3 Variants.none c none i arg1 harg1 arg2 harg2 arg3 harg3 arg4 harg4 arg5 harg5 arg6 harg6 arg7 harg7 _ _ _ _ cc p x 18 le_rfl]
  rw [read_writes_whole_cons _ _ zero3, read_writes_whole_cons _ _ zero3, harg1.read_unread]
  rw [pay10_eq, pay6_eq, sum_voteTerm _ _ (step (logit0 (actsAt x1 x)) (votesAt x0 x)) x (fun B cc => by
    rw [pay9_eq, pay5_apply]; congr 1; funext c'; exact logits1_apply c i arg1 harg1 arg2 harg2 arg3 harg3 arg4 harg4 arg5 harg5 arg6 harg6 arg7 harg7 x0 x1 B c' x) cc p]
  exact zero_add _

/-- The logits after the second update loop. -/
theorem logits2_apply (B : Fin 144) (cc : Fin 16) (x : Fin 144) :
    ((kernelRun0_A.sl.v72 (F := Ideal) c i arg1 harg1 arg2 harg2 arg3 harg3 arg4 harg4 arg5 harg5 arg6 harg6 arg7 harg7 x0 x1) : S144x16x144.Idx → EReal) (ix3 B cc x) = step (step (logit0 (actsAt x1 x)) (votesAt x0 x)) (votesAt x0 x) B cc := by
  unfold kernelRun0_A.sl.v72
  rw [View.readAt_eq_ld, View.ld_unit_zero (S := S144x16x144) zero3, View.writes_append]
  have ht : (Scf.trips k0_t4_loop.lb k0_t4_loop.ub k0_t4_loop.st) = 18 := trips4
  rw [ht, update_loop4 Variants.none c none i arg1 harg1 arg2 harg2 arg3 harg3 arg4 harg4 arg5 harg5 arg6 harg6 arg7 harg7 _ _ _ B cc x 18 le_rfl, if_pos (by have := B.isLt; omega)]
  rw [harg1.read_unread, logits1_read c i arg1 harg1 arg2 harg2 arg3 harg3 arg4 harg4 arg5 harg5 arg6 harg6 arg7 harg7 x0 x1 B cc x,
    agree_eq _ _ (step (logit0 (actsAt x1 x)) (votesAt x0 x)) x (fun cc p => vote2_apply c i arg1 harg1 arg2 harg2 arg3 harg3 arg4 harg4 arg5 harg5 arg6 harg6 arg7 harg7 x0 x1 cc p x)]
  rfl

/-- The third weighted vote. -/
theorem vote3_apply (cc p : Fin 16) (x : Fin 144) :
    ((kernelRun0_A.sl.v_2 (F := Ideal) c i arg1 harg1 arg2 harg2 arg3 harg3 arg4 harg4 arg5 harg5 arg6 harg6 arg7 harg7 x0 x1) : S16x16x144.Idx → EReal) (ix3 cc p x) = vote (step (step (logit0 (actsAt x1 x)) (votesAt x0 x)) (votesAt x0 x)) (votesAt x0 x) cc p := by
  unfold kernelRun0_A.sl.v_2
  rw [View.readAt_eq_ld, View.ld_unit_zero (S := S16x16x144) zero3, View.writes_append]
  have ht : (Scf.trips k0_t5_loop.lb k0_t5_loop.ub k0_t5_loop.st) = 18 := trips5
  rw [ht, vote_loop5 Variants.none c none i arg1 harg1 arg2 harg2 arg3 harg3 arg4 harg4 arg5 harg5 arg6 harg6 arg7 harg7 _ _ _ _ cc p x 18 le_rfl]
  rw [read_writes_whole_cons _ _ zero3, read_writes_whole_cons _ _ zero3, harg1.read_unread]
  rw [pay14_eq, pay6_eq, sum_voteTerm _ _ (step (step (logit0 (actsAt x1 x)) (votesAt x0 x)) (votesAt x0 x)) x (fun B cc => by
    rw [pay13_eq, pay5_apply]; congr 1; funext c'; exact logits2_apply c i arg1 harg1 arg2 harg2 arg3 harg3 arg4 harg4 arg5 harg5 arg6 harg6 arg7 harg7 x0 x1 B c' x) cc p]
  exact zero_add _

/-! ## The two output blocks -/

/-- The block of output capsules the body leaves, pixel by pixel. -/
theorem out2_apply (cc p : Fin 16) (x : Fin 144) :
    out0_A_2 (F := Ideal) c i arg1 harg1 arg2 harg2 arg3 harg3 arg4 harg4 arg5 harg5 arg6 harg6 arg7 harg7 x0 x1 (ix4 0 cc p x) = vOut (votesAt x0 x) (actsAt x1 x) cc p := by
  unfold out0_A_2
  rw [View.read_writes_eq_canon _ _ _ (cover0_A_2 c i arg1 harg1 arg2 harg2 arg3 harg3 arg4 harg4 arg5 harg5 arg6 harg6 arg7 harg7 x0 x1)]
  unfold kernelRun0_A
  dsimp only
  have e : (fun p' => ((kernelRun0_A.sl.v_2 (F := Ideal) c i arg1 harg1 arg2 harg2 arg3 harg3 arg4 harg4 arg5 harg5 arg6 harg6 arg7 harg7 x0 x1) : S16x16x144.Idx → EReal) (ix3 cc p' x)) = vote (step (step (logit0 (actsAt x1 x)) (votesAt x0 x)) (votesAt x0 x)) (votesAt x0 x) cc :=
    funext fun p' => vote3_apply c i arg1 harg1 arg2 harg2 arg3 harg3 arg4 harg4 arg5 harg5 arg6 harg6 arg7 harg7 x0 x1 cc p' x
  rw [View.canon_unit_zero zero4, pay2_apply, pay1_apply, e]
  rfl

/-- The block of their lengths. -/
theorem out3_apply (cc : Fin 16) (x : Fin 144) :
    out0_A_3 (F := Ideal) c i arg1 harg1 arg2 harg2 arg3 harg3 arg4 harg4 arg5 harg5 arg6 harg6 arg7 harg7 x0 x1 (ix3 0 cc x) = aOut (votesAt x0 x) (actsAt x1 x) cc := by
  unfold out0_A_3
  rw [View.read_writes_eq_canon _ _ _ (cover0_A_3 c i arg1 harg1 arg2 harg2 arg3 harg3 arg4 harg4 arg5 harg5 arg6 harg6 arg7 harg7 x0 x1)]
  unfold kernelRun0_A
  dsimp only
  have e : (fun p' => ((kernelRun0_A.sl.v_2 (F := Ideal) c i arg1 harg1 arg2 harg2 arg3 harg3 arg4 harg4 arg5 harg5 arg6 harg6 arg7 harg7 x0 x1) : S16x16x144.Idx → EReal) (ix3 cc p' x)) = vote (step (step (logit0 (actsAt x1 x)) (votesAt x0 x)) (votesAt x0 x)) (votesAt x0 x) cc :=
    funext fun p' => vote3_apply c i arg1 harg1 arg2 harg2 arg3 harg3 arg4 harg4 arg5 harg5 arg6 harg6 arg7 harg7 x0 x1 cc p' x
  rw [View.canon_unit_zero zero3, pay3_apply]
  unfold aOut vOut outv
  congr 1
  refine Finset.sum_congr rfl fun p _ => ?_
  rw [pay1_apply, e]

end Cert.KernelIdeal.Steps

end
-- ==== Proof.KernelValue.lean ====
/-
  The kernel's two result arrays, read at an index, are the routing's output capsules and their lengths.

  At batch row `b` the result arrays hold what the body left at grid point `b`; the body's outputs at an index
  `(0, c, p, x)` and `(0, c, x)` are the routing of the votes and activations its two input blocks hold at pixel
  `x`; the input blocks at point `b` are batch row `b` of the arrays the region finds; and those arrays are the
  program's arguments with the two pixel axes merged (narrowing the votes changes nothing at the exact instance).
  At `x = 12·y + z` the votes and activations are therefore the arguments at `(b, B, c, p, y, z)` and
  `(b, B, y, z)`. With the reference's results read the same way, the two programs agree.
-/
import proofs.«123957_j17686675325395_1_alg».proof.Proof.KernelArrays
import proofs.«123957_j17686675325395_1_alg».proof.Proof.PixelLayout
import proofs.«123957_j17686675325395_1_alg».proof.Proof.Assembly
import proofs.«123957_j17686675325395_1_alg».proof.Proof.RefRouting
import proofs.«123957_j17686675325395_1_alg».proof.Proof.BodyValue

set_option maxRecDepth 16384

noncomputable section

namespace Cert.KernelValue

open Idealize.ShloMosaic Idealize.ShloMosaic.TcCoe Idealize.SL.Sem Idealize.ShloMosaic.ValueIdx
open Cert.KernelIdeal Cert.KernelIdeal.Gen Cert.KernelArrays Cert.PixelLayout

variable (m : (ℓ : Loc nD τ sig) → Buf (Elt Ideal) ℓ)

/-- The votes the body finds at batch row `b` and pixel `12·y + z` are the first argument at `(b, ·, ·, ·, y, z)`. -/
theorem votes_eq (c : Dev nD) (b : Fin 8) (y z : Fin 12) :
    (fun (B : Fin 144) (c' p' : Fin 16) => (iblk m c 0 (pt b) : Vec Ideal S1x144x16x16x144 .bf16) (ix5 (0 : Fin 1) B c' p' (pix y z)))
      = fun B c' p' => (m ((c.tc : Thread nD τ).loc main_arg0) : S8x144x16x16x12x12.Idx → EReal) (ix6 b B c' p' y z) := by
  funext B c' p'
  refine (iblk0_pt m c b B c' p' (pix y z)).trans ?_
  rw [V_v1]
  exact merge_u (m ((c.tc : Thread nD τ).loc main_arg0) : S8x144x16x16x12x12.Idx → EReal) _ b B c' p' y z

/-- The activations the body finds at batch row `b` and pixel `12·y + z` are the second argument at `(b, ·, y, z)`. -/
theorem acts_eq (c : Dev nD) (b : Fin 8) (y z : Fin 12) :
    (fun (B : Fin 144) => (iblk m c 1 (pt b) : Vec Ideal S1x144x144 .f32) (ix3 (0 : Fin 1) B (pix y z)))
      = fun B => (m ((c.tc : Thread nD τ).loc main_arg1) : S8x144x12x12.Idx → EReal) (ix4 b B y z) := by
  funext B
  refine (iblk1_pt m c b B (pix y z)).trans ?_
  rw [V_v2]
  exact merge_a (m ((c.tc : Thread nD τ).loc main_arg1) : S8x144x12x12.Idx → EReal) _ b B y z

/-- The first result array at `(b, c, p, 12·y + z)` is the routing's output capsule `c`, component `p`. -/
theorem harr2 (c : Dev nD) (b : Fin 8) (cc p : Fin 16) (y z : Fin 12) :
    arr2 (F := Ideal) m c (ix4 b cc p (pix y z))
      = Cert.Routing.vOut (fun B c' p' => m ((c.tc : Thread nD τ).loc main_arg0) (ix6 b B c' p' y z))
          (fun B => m ((c.tc : Thread nD τ).loc main_arg1) (ix4 b B y z)) cc p := by
  show (outsAt0 m c (pt b)).1 (ix4 0 cc p (pix y z)) = _
  unfold outsAt0
  dsimp only
  rw [Cert.KernelIdeal.Steps.out2_apply]
  exact congrArg₂ (fun U A => Cert.Routing.vOut U A cc p) (votes_eq m c b y z) (acts_eq m c b y z)

/-- The second result array at `(b, c, 12·y + z)` is the length of the routing's output capsule `c`. -/
theorem harr3 (c : Dev nD) (b : Fin 8) (cc : Fin 16) (y z : Fin 12) :
    arr3 (F := Ideal) m c (ix3 b cc (pix y z))
      = Cert.Routing.aOut (fun B c' p' => m ((c.tc : Thread nD τ).loc main_arg0) (ix6 b B c' p' y z))
          (fun B => m ((c.tc : Thread nD τ).loc main_arg1) (ix4 b B y z)) cc := by
  show (outsAt0 m c (pt b)).2 (ix3 0 cc (pix y z)) = _
  unfold outsAt0
  dsimp only
  rw [Cert.KernelIdeal.Steps.out3_apply]
  exact congrArg₂ (fun U A => Cert.Routing.aOut U A cc) (votes_eq m c b y z) (acts_eq m c b y z)

/-- From memories that agree on the arguments both programs run, end with equal results and leave the arguments
    unchanged. -/
theorem algebraic : Cert.algebraic_KernelIdeal_ReferenceIdeal :=
  Cert.Assembly.algebraic (fun m c => arr2 (F := Ideal) m c) (fun m c => arr3 (F := Ideal) m c)
    (fun m ρ => Cert.KernelArrays.run (F := Ideal) m ρ)
    (fun m c b cc p y z => harr2 m c b cc p y z) (fun m c b cc y z => harr3 m c b cc y z)
    Cert.RefRouting.ref_v Cert.RefRouting.ref_a

end Cert.KernelValue

end
-- ==== Proof.lean ====
/-
  The certificate of the capsule-routing kernel against its jnp reference: the five conjuncts of `Cert.Claim`.

  The three frames: the word-level kernel and its idealization run by the generated frame certificates, the
  reference by its generated run with the results dropped. The idealization rewrote nothing, so `preserves` is
  `True`. The algebraic conjunct: at the exact instance both programs end, at batch element `b`, output capsule `c`,
  pose component `p` and pixel `(y, z)`, with three rounds of dynamic routing (Proof/Routing.lean) of the votes
  `u[b, ·, ·, ·, y, z]` and activations `a[b, ·, y, z]`, and with the lengths of those output capsules. On the
  kernel's side each grid point handles one batch element with the two pixel axes merged into one; its three
  scratch arrays are followed through the body's stores and its five chunked loops (Proof/BodyTrips.lean,
  Proof/BodyLoops.lean, Proof/BodyValue.lean over the stored values of Proof/KernelPayloads.lean), the blocks are
  put back into the result arrays and the pixel axis is split again (Proof/KernelArrays.lean, Proof/PixelLayout.lean,
  Proof/KernelValue.lean). On the reference's side the composed term of its run is read at an index
  (Proof/RefRouting.lean). The only law joining the two sides is that a sum over 144 input capsules is the sum of
  its 18 chunks of 8, which holds in any commutative monoid; no finiteness of the inputs is used.
-/
import proofs.«123957_j17686675325395_1_alg».proof.Defs
import proofs.«123957_j17686675325395_1_alg».proof.Proof.Gen.Kernel
import proofs.«123957_j17686675325395_1_alg».proof.Proof.Gen.Kernel.Skeleton
import proofs.«123957_j17686675325395_1_alg».proof.Proof.Gen.Kernel.Loops
import proofs.«123957_j17686675325395_1_alg».proof.Proof.Gen.Kernel.Launch
import proofs.«123957_j17686675325395_1_alg».proof.Proof.Gen.Kernel.Points
import proofs.«123957_j17686675325395_1_alg».proof.Proof.Gen.Kernel.Frame
import proofs.«123957_j17686675325395_1_alg».proof.Proof.Gen.KernelIdeal
import proofs.«123957_j17686675325395_1_alg».proof.Proof.Gen.KernelIdeal.Skeleton
import proofs.«123957_j17686675325395_1_alg».proof.Proof.Gen.KernelIdeal.Loops
import proofs.«123957_j17686675325395_1_alg».proof.Proof.Gen.KernelIdeal.Launch
import proofs.«123957_j17686675325395_1_alg».proof.Proof.Gen.KernelIdeal.Points
import proofs.«123957_j17686675325395_1_alg».proof.Proof.Gen.KernelIdeal.Frame
import proofs.«123957_j17686675325395_1_alg».proof.Proof.Gen.ReferenceIdeal
import proofs.«123957_j17686675325395_1_alg».proof.Proof.Gen.ReferenceIdeal.Run
import proofs.«123957_j17686675325395_1_alg».proof.Proof.Gen.Pre_finite_inputs
import proofs.«123957_j17686675325395_1_alg».proof.Proof.Assembly
import proofs.«123957_j17686675325395_1_alg».proof.Proof.KernelValue
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  Cert.Assembly.frame_ri,
  trivial,
  Cert.KernelValue.algebraic⟩

end Cert.Proof

end
